-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S1024x3072 : Shape := ⟨2, ![1024, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S64x2048x64 : Shape := ⟨3, ![64, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S4x2048x16x64 : Shape := ⟨4, ![4, 2048, 16, 64]⟩
abbrev S1x1024 : Shape := ⟨2, ![1, 1024]⟩

abbrev nBuf : Space → Nat
  | .hbm => 29
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x1024, .bf16⟩
  | .hbm, ⟨5, _⟩ => ⟨S1024x3072, .f32⟩
  | .hbm, ⟨6, _⟩ => ⟨S1024x3072, .bf16⟩
  | .hbm, ⟨7, _⟩ => ⟨S8192x1024, .bf16⟩
  | .hbm, ⟨8, _⟩ => ⟨S8192x3072, .bf16⟩
  | .hbm, ⟨9, _⟩ => ⟨S4x2048x3x16x64, .bf16⟩
  | .hbm, ⟨10, _⟩ => ⟨S3x4x16x2048x64, .bf16⟩
  | .hbm, ⟨11, _⟩ => ⟨S1x4x16x2048x64, .bf16⟩
  | .hbm, ⟨12, _⟩ => ⟨S4x16x2048x64, .bf16⟩
  | .hbm, ⟨13, _⟩ => ⟨S64x2048x64, .bf16⟩
  | .hbm, ⟨14, _⟩ => ⟨S1x4x16x2048x64, .bf16⟩
  | .hbm, ⟨15, _⟩ => ⟨S4x16x2048x64, .bf16⟩
  | .hbm, ⟨16, _⟩ => ⟨S64x2048x64, .bf16⟩
  | .hbm, ⟨17, _⟩ => ⟨S1x4x16x2048x64, .bf16⟩
  | .hbm, ⟨18, _⟩ => ⟨S4x16x2048x64, .bf16⟩
  | .hbm, ⟨19, _⟩ => ⟨S64x2048x64, .bf16⟩
  | .hbm, ⟨20, _⟩ => ⟨S64x2048x64, .bf16⟩
  | .hbm, ⟨21, _⟩ => ⟨S4x16x2048x64, .bf16⟩
  | .hbm, ⟨22, _⟩ => ⟨S4x2048x16x64, .bf16⟩
  | .hbm, ⟨23, _⟩ => ⟨S8192x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S8192x1024, .f32⟩
  | .hbm, ⟨28, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x256x64, .bf16⟩
  | .local _ .vmem, ⟨6, _⟩ => ⟨S1x256x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x256x64, .bf16⟩
  | .local _ .vmem, ⟨12, _⟩ => ⟨S1x256x64, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S3072x1024_S1024x3072_1_0 : S3072x1024.Transposes [1, 0] S1024x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3x16x64 : S8192x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  shapeCasts_S4x16x2048x64_S64x2048x64 : S4x16x2048x64.ShapeCasts S64x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S64x2048x64.size a
  hwx1_0 : ∀ i : grid1.Coords, EltTy.bits .bf16 = 32 ∨ (Rect.block (s := S64x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S64x2048x64.size a
  hwx1_3 : ∀ i : grid1.Coords, EltTy.bits .bf16 = 32 ∨ (Rect.block (s := S64x2048x64) S1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KernelRun.lean ====
/-
  The idealized kernel's whole run, with its result named.

  The program is three kernel launches among four stretches of host operations.  Its buffers at each boundary are a fold from
  the launch memory: a host stretch applies its operations, a launch replaces its output array by what the grid's
  write-backs leave and keeps every other buffer.  Every weakly fair execution terminates without a fault, and in the final
  state the result buffer holds the last boundary's contents while the four argument arrays are as launched.
-/
import proofs.«170130_j44255343018291_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and each argument array ends as launched. -/
theorem run : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.RunValue

end
-- ==== Proof.Stages.lean ====
/-
  The layout stages both programs share, as functions of whole arrays of extended reals.

  The fused projection is an array indexed (batch, position, part, head, lane) with part 0, 1, 2 the queries, keys and
  values.  `headsQ`, `headsK`, `headsV` move the part axis to the front, keep one part and drop its unit axis, giving
  arrays indexed (batch, head, position, lane).  `merge` swaps head and position back, for the arrays indexed
  (batch, position, head, lane) that the output projection flattens.  Reading a reshaped array at an index is reading
  the source at the index with the same position in row-major order: the lemmas below do this for the reshapes that fuse
  (batch, head) into one axis of extent 64 and (batch, position) into one axis of extent 8192.
-/
import proofs.«170130_j44255343018291_2_alg».proof.Proof.Gen.ReferenceIdeal
import Idealize.ShloMosaic.PureOps.Ideal
import Idealize.ShloMosaic.Lib.ValueIdx
import Idealize.ShloMosaic.Lib.Pipeline.Value

noncomputable section

namespace Cert.Stages

open Idealize.ShloMosaic Idealize.ShloMosaic.ValueIdx Cert.ReferenceIdeal Cert.ReferenceIdeal.Gen

/-- The queries: part 0 of the fused projection, indexed (batch, head, position, lane). -/
def headsQ (y : S4x2048x3x16x64.Idx → EReal) : S4x16x2048x64.Idx → EReal :=
  shapeCast S4x16x2048x64 (extractStridedSlice S1x4x16x2048x64 ![0, 0, 0, 0, 0]
    (transpose S3x4x16x2048x64 [2, 0, 3, 1, 4] y transposes_S4x2048x3x16x64_S3x4x16x2048x64_2_0_3_1_4)
    slices_S3x4x16x2048x64_S1x4x16x2048x64_0_0_0_0_0) shapeCasts_S1x4x16x2048x64_S4x16x2048x64

/-- The keys: part 1. -/
def headsK (y : S4x2048x3x16x64.Idx → EReal) : S4x16x2048x64.Idx → EReal :=
  shapeCast S4x16x2048x64 (extractStridedSlice S1x4x16x2048x64 ![1, 0, 0, 0, 0]
    (transpose S3x4x16x2048x64 [2, 0, 3, 1, 4] y transposes_S4x2048x3x16x64_S3x4x16x2048x64_2_0_3_1_4)
    slices_S3x4x16x2048x64_S1x4x16x2048x64_1_0_0_0_0) shapeCasts_S1x4x16x2048x64_S4x16x2048x64

/-- The values: part 2. -/
def headsV (y : S4x2048x3x16x64.Idx → EReal) : S4x16x2048x64.Idx → EReal :=
  shapeCast S4x16x2048x64 (extractStridedSlice S1x4x16x2048x64 ![2, 0, 0, 0, 0]
    (transpose S3x4x16x2048x64 [2, 0, 3, 1, 4] y transposes_S4x2048x3x16x64_S3x4x16x2048x64_2_0_3_1_4)
    slices_S3x4x16x2048x64_S1x4x16x2048x64_2_0_0_0_0) shapeCasts_S1x4x16x2048x64_S4x16x2048x64

/-- Heads and positions swapped: (batch, head, position, lane) to (batch, position, head, lane). -/
def merge (a : S4x16x2048x64.Idx → EReal) : S4x2048x16x64.Idx → EReal :=
  transpose S4x2048x16x64 [0, 2, 1, 3] a transposes_S4x16x2048x64_S4x2048x16x64_0_2_1_3

/-- The fused (batch, head) coordinate `16 b + h`. -/
def bh (b : Fin 4) (h : Fin 16) : Fin 64 := ⟨16 * b.val + h.val, by omega⟩

/-- The fused (batch, position) coordinate `2048 b + s`. -/
def bs (b : Fin 4) (s : Fin 2048) : Fin 8192 := ⟨2048 * b.val + s.val, by omega⟩

/-- A (batch, head, position, lane) array with batch and head fused, read at `(16 b + h, s, j)`. -/
theorem fuseHeads_apply (a : S4x16x2048x64.Idx → EReal) (hc : S4x16x2048x64.ShapeCasts ⟨3, ![64, 2048, 64]⟩)
    (b : Fin 4) (h : Fin 16) (s : Fin 2048) (j : Fin 64) :
    shapeCast ⟨3, ![64, 2048, 64]⟩ a hc (ix3 (bh b h) s j) = a (ix4 b h s j) :=
  shapeCast_apply a hc _ _ (by
    rw [Shape.rowMajor_val_four, Shape.rowMajor_val_three]
    show ((b.val * 16 + h.val) * 2048 + s.val) * 64 + j.val = ((16 * b.val + h.val) * 2048 + s.val) * 64 + j.val
    omega)

/-- An array over the fused (batch, head) axis split back, read at `(b, h, s, j)`. -/
theorem splitHeads_apply (a : (⟨3, ![64, 2048, 64]⟩ : Shape).Idx → EReal) (hc : (⟨3, ![64, 2048, 64]⟩ : Shape).ShapeCasts S4x16x2048x64)
    (b : Fin 4) (h : Fin 16) (s : Fin 2048) (j : Fin 64) :
    shapeCast S4x16x2048x64 a hc (ix4 b h s j) = a (ix3 (bh b h) s j) :=
  shapeCast_apply a hc _ _ (by
    rw [Shape.rowMajor_val_four, Shape.rowMajor_val_three]
    show ((16 * b.val + h.val) * 2048 + s.val) * 64 + j.val = ((b.val * 16 + h.val) * 2048 + s.val) * 64 + j.val
    omega)

/-- A (batch, position, column) array with batch and position fused, read at `(2048 b + s, e)`. -/
theorem fuseRows_apply {n : ℕ} (a : (⟨3, ![4, 2048, n]⟩ : Shape).Idx → EReal)
    (hc : (⟨3, ![4, 2048, n]⟩ : Shape).ShapeCasts ⟨2, ![8192, n]⟩) (b : Fin 4) (s : Fin 2048) (e : Fin n) :
    shapeCast ⟨2, ![8192, n]⟩ a hc (ix2 (bs b s) e) = a (ix3 b s e) :=
  shapeCast_apply a hc _ _ (by
    rw [Shape.rowMajor_val_three, Shape.rowMajor_val_two]
    show (b.val * 2048 + s.val) * n + e.val = (2048 * b.val + s.val) * n + e.val
    rw [Nat.mul_comm b.val 2048])

/-- An array over the fused (batch, position) axis split back, read at `(b, s, e)`. -/
theorem splitRows_apply {n : ℕ} (a : (⟨2, ![8192, n]⟩ : Shape).Idx → EReal)
    (hc : (⟨2, ![8192, n]⟩ : Shape).ShapeCasts ⟨3, ![4, 2048, n]⟩) (b : Fin 4) (s : Fin 2048) (e : Fin n) :
    shapeCast ⟨3, ![4, 2048, n]⟩ a hc (ix3 b s e) = a (ix2 (bs b s) e) :=
  shapeCast_apply a hc _ _ (by
    rw [Shape.rowMajor_val_three, Shape.rowMajor_val_two]
    show (2048 * b.val + s.val) * n + e.val = (b.val * 2048 + s.val) * n + e.val
    rw [Nat.mul_comm b.val 2048])

end Cert.Stages

end
-- ==== Proof.KernelHost.lean ====
/-
  The host operations of the idealized kernel, read as functions of whole arrays.

  Between the launches the program only re-lays arrays: it flattens (batch, position) into 8192 rows, transposes the weight
  matrices, splits the fused projection into queries, keys and values per head and fuses (batch, head) into 64 slices, swaps
  heads and positions back, and casts the bias to a row.  Each buffer a launch reads is therefore a composition of layout
  maps applied to an argument array or to the previous launch's output array; a change of float format is the identity on
  extended reals.  The weights and the bias of the last launch come from argument arrays that nothing before has written.
-/
import proofs.«170130_j44255343018291_2_alg».proof.Proof.Gen.KernelIdeal.Frame
import proofs.«170130_j44255343018291_2_alg».proof.Proof.Stages
import Idealize.ShloMosaic.PureOps.Ideal
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first launch -/

/-- The activations with (batch, position) flattened into rows. -/
theorem rows_x (c : Dev nD) :
    W1 m ρ c (Proc.devRef .tc main_v3)
      = shapeCast S8192x1024 (m ((c : Thread nD τ).loc main_arg0)) shapeCasts_S4x2048x1024_S8192x1024 := by
  dsimp only [W1, hostOps0]; after_results; rfl

/-- The fused projection's weights, transposed. -/
theorem wT_qkv (c : Dev nD) :
    W1 m ρ c (Proc.devRef .tc main_v2)
      = transpose S1024x3072 [1, 0] (m ((c : Thread nD τ).loc main_arg1)) transposes_S3072x1024_S1024x3072_1_0 := by
  dsimp only [W1, hostOps0]; after_results; rfl

/-- The first launch's output array is what its write-backs leave. -/
theorem out0 (c : Dev nD) : W2 m ρ c (Proc.devRef .tc main_v4) = (dat0 (V1 m ρ) c).arrAt 2 cfg0.N := W2_arr m ρ c 2

/-! ## Between the first and the second launch -/

/-- The queries, with (batch, head) fused. -/
theorem slices_q (c : Dev nD) :
    W3 m ρ c (Proc.devRef .tc main_v9)
      = shapeCast S64x2048x64 (Cert.Stages.headsQ
          (shapeCast S4x2048x3x16x64 (W2 m ρ c (Proc.devRef .tc main_v4)) shapeCasts_S8192x3072_S4x2048x3x16x64))
          shapeCasts_S4x16x2048x64_S64x2048x64 := by
  dsimp only [W3, hostOps1]; after_results; rfl

/-- The keys, with (batch, head) fused. -/
theorem slices_k (c : Dev nD) :
    W3 m ρ c (Proc.devRef .tc main_v12)
      = shapeCast S64x2048x64 (Cert.Stages.headsK
          (shapeCast S4x2048x3x16x64 (W2 m ρ c (Proc.devRef .tc main_v4)) shapeCasts_S8192x3072_S4x2048x3x16x64))
          shapeCasts_S4x16x2048x64_S64x2048x64 := by
  dsimp only [W3, hostOps1]; after_results; rfl

/-- The values, with (batch, head) fused. -/
theorem slices_v (c : Dev nD) :
    W3 m ρ c (Proc.devRef .tc main_v15)
      = shapeCast S64x2048x64 (Cert.Stages.headsV
          (shapeCast S4x2048x3x16x64 (W2 m ρ c (Proc.devRef .tc main_v4)) shapeCasts_S8192x3072_S4x2048x3x16x64))
          shapeCasts_S4x16x2048x64_S64x2048x64 := by
  dsimp only [W3, hostOps1]; after_results; rfl

/-- The second launch's output array is what its write-backs leave. -/
theorem out1 (c : Dev nD) : W4 m ρ c (Proc.devRef .tc main_v16) = (dat1 (V3 m ρ) c).arrAt 3 cfg1.N := W4_arr m ρ c 3

/-! ## Between the second and the third launch -/

theorem entry2_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem entry2_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The attention output with heads and positions swapped back and (batch, position) flattened into rows. -/
theorem rows_attn (c : Dev nD) :
    W5 m ρ c (Proc.devRef .tc main_v19)
      = shapeCast S8192x1024 (Cert.Stages.merge
          (shapeCast S4x16x2048x64 (W4 m ρ c (Proc.devRef .tc main_v16)) shapeCasts_S64x2048x64_S4x16x2048x64))
          shapeCasts_S4x2048x16x64_S8192x1024 := by
  dsimp only [W5, hostOps2]; after_results; rfl

/-- The output projection's weights, transposed. -/
theorem wT_out (c : Dev nD) :
    W5 m ρ c (Proc.devRef .tc main_v21)
      = transpose S1024x1024 [1, 0] (m ((c : Thread nD τ).loc main_arg2)) transposes_S1024x1024_S1024x1024_1_0 := by
  have h := entry2_main_arg2 m ρ c
  dsimp only [W5, hostOps2]; after_results; rw [h]; rfl

/-- The bias as a row. -/
theorem bias_row (c : Dev nD) :
    W5 m ρ c (Proc.devRef .tc main_v22)
      = shapeCast S1x1024 (m ((c : Thread nD τ).loc main_arg3)) shapeCasts_S1024_S1x1024 := by
  have h := entry2_main_arg3 m ρ c
  dsimp only [W5, hostOps2]; after_results; rw [h]; rfl

/-- The third launch's output array is what its write-backs leave. -/
theorem out2 (c : Dev nD) : W6 m ρ c (Proc.devRef .tc main_v23) = (dat2 (V5 m ρ) c).arrAt 3 cfg2.N := W6_arr m ρ c 3

/-! ## After the third launch -/

/-- The result: the last launch's rows split back into (batch, position). -/
theorem result (c : Dev nD) :
    W7 m ρ c (Proc.devRef .tc main_v24)
      = shapeCast S4x2048x1024 (W6 m ρ c (Proc.devRef .tc main_v23)) shapeCasts_S8192x1024_S4x2048x1024 := by
  dsimp only [W7, hostOps3]; after_results; rfl

end Cert.KernelIdeal.HostValue

end
-- ==== Proof.LibAttnSwap.lean ====
/-
  Scaled dot-product attention for one query row on the extended reals: dividing once after weighing the values equals
  dividing every weight first, when all scores and values are real numbers.

  For a query row `q` of length `d` and `n` key rows the scaled score against key `c` is `(∑ j, q j · k c j) · scale`, with
  `scale` the float pattern of one eighth.  With `M` the largest score, the shifted exponentials are `e c = exp (s c − M)`.
  One arrangement weighs the value rows by the exponentials and divides the total once by their sum,
  `(∑ c, e c · v c) / ∑ c, e c`; the other divides every exponential by the sum first, `∑ c, (e c / ∑ c', e c') · v c`.
  On the extended reals the two differ at infinities.  When every score and value is a real number the largest score is one
  of the scores, hence real; every shifted exponential is the coercion of a positive real, and so is their sum `Z`;
  division by the nonzero real `Z` is multiplication by `1 / Z`; both arrangements are then coercions of real sums and the
  identity between them is distributivity in the reals.  Also here: real-valuedness is closed under products and finite
  sums, the scale is the real 1/8, and the coercion of the reals commutes with finite sums.
-/
import Idealize.ShloMosaic.PureOps.Ideal

noncomputable section

namespace Cert.Lib.AttnSwap

open Idealize.ShloMosaic
open scoped BigOperators

/-- An extended real that is a real number. -/
def IsReal (x : EReal) : Prop := ∃ r : ℝ, x = (r : EReal)

/-- The scale one eighth, as the float pattern both programs carry. -/
def scale : EReal := Ideal.ofBits .f32 0x3E000000#32

/-- The scaled score of one query row against key row `c`. -/
def score {n d : ℕ} (q : Fin d → EReal) (k : Fin n → Fin d → EReal) (c : Fin n) : EReal :=
  (∑ j : Fin d, q j * k c j) * scale

/-- The exponential of a score shifted by the largest score. -/
def expShift {n : ℕ} (s : Fin n → EReal) (c : Fin n) : EReal :=
  Ideal.exp (s c - (Finset.univ : Finset (Fin n)).sup s)

/-- Weigh by the shifted exponentials, then divide once by their sum. -/
def attnDivAfter {n : ℕ} (s v : Fin n → EReal) : EReal :=
  Ideal.div (∑ c : Fin n, expShift s c * v c) (∑ c : Fin n, expShift s c)

/-- Divide every shifted exponential by their sum, then weigh. -/
def attnDivBefore {n : ℕ} (s v : Fin n → EReal) : EReal :=
  ∑ c : Fin n, Ideal.div (expShift s c) (∑ c' : Fin n, expShift s c') * v c

/-! ### Real-valuedness is closed under the ring operations and finite sums -/

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem isReal_finset_sum {ι : Type*} (t : Finset ι) (f : ι → EReal) (hf : ∀ i, IsReal (f i)) :
    IsReal (∑ i ∈ t, f i) := by
  choose φ hφ using hf
  refine ⟨∑ i ∈ t, φ i, ?_⟩
  rw [coe_finset_sum]
  exact Finset.sum_congr rfl fun i _ => hφ i

/-! ### The scale, the dot product, the score -/

/-- The float pattern of the scale denotes one eighth: sign 0, biased exponent 124, fraction 0, that is
    `2 ^ 23 · 2 ^ (124 − 127 − 23) = 2 ^ (−3)`. -/
theorem scale_eq : scale = ((1 / 8 : ℝ) : EReal) := by
  simp [scale, Ideal.ofBits, Ideal.ieee]
  rw [← EReal.coe_mul]
  congr 1
  norm_num

theorem isReal_scale : IsReal scale := ⟨1 / 8, scale_eq⟩

theorem isReal_sum_mul {K : ℕ} (f g : Fin K → EReal) (hf : ∀ k, IsReal (f k)) (hg : ∀ k, IsReal (g k)) :
    IsReal (∑ k, f k * g k) :=
  isReal_finset_sum _ _ fun k => (hf k).mul (hg k)

theorem isReal_score {n d : ℕ} (q : Fin d → EReal) (k : Fin n → Fin d → EReal) (hq : ∀ j, IsReal (q j))
    (hk : ∀ c j, IsReal (k c j)) (c : Fin n) : IsReal (score q k c) :=
  (isReal_sum_mul q (k c) hq (hk c)).mul isReal_scale

/-! ### The two arrangements agree on real scores and values -/

theorem attn_div_swap {n : ℕ} (hn : 0 < n) (s v : Fin n → EReal) (hs : ∀ c, IsReal (s c)) (hv : ∀ c, IsReal (v c)) :
    attnDivAfter s v = attnDivBefore s v := by
  choose σ hσ using hs
  choose ν hν using hv
  -- the largest score is attained, so it is a real number
  have hne : (Finset.univ : Finset (Fin n)).Nonempty := ⟨⟨0, hn⟩, Finset.mem_univ _⟩
  obtain ⟨c₀, -, hM⟩ := Finset.exists_mem_eq_sup (Finset.univ : Finset (Fin n)) hne s
  -- every shifted exponential is the coercion of a positive real
  have he : ∀ c, expShift s c = ((Real.exp (σ c - σ c₀) : ℝ) : EReal) := by
    intro c
    rw [expShift, hM, hσ c, hσ c₀, ← EReal.coe_sub, Ideal.exp_coe]
  -- their sum is a positive real
  have hZpos : 0 < ∑ c : Fin n, Real.exp (σ c - σ c₀) :=
    Finset.sum_pos (fun c _ => Real.exp_pos _) hne
  have hZ : (∑ c : Fin n, expShift s c) = ((∑ c : Fin n, Real.exp (σ c - σ c₀) : ℝ) : EReal) := by
    rw [coe_finset_sum]
    exact Finset.sum_congr rfl fun c _ => he c
  -- both sides are coercions of real sums
  rw [attnDivAfter, attnDivBefore, hZ]
  simp only [Ideal.div_coe hZpos.ne', he, hν, ← EReal.coe_mul, ← coe_finset_sum]
  -- distributivity in the reals
  rw [Finset.sum_mul]
  congr 1
  exact Finset.sum_congr rfl fun c _ => by ring

end Cert.Lib.AttnSwap

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.RefValue.lean ====
/-
  The idealized reference, read at an index.

  With Q, K, V the per-head queries, keys and values (arrays indexed (batch, head, position, lane), layout maps of the fused
  projection), the reference computes for query (b, h, s) the scaled scores against every key position, their largest
  value, the shifted exponentials and their sum, divides each exponential by the sum, and weighs the value rows:
  its attention array at (b, h, s, j) is the "divide first, then weigh" arrangement.  A maximum started from -inf is the
  supremum of the scores and a sum started from 0 is the plain sum.  The result at (b, s, e) is the row (b, s) of the
  re-laid attention array against row e of the output weights, plus the bias entry e.  When the activations and the fused
  weights are real-valued, so is every query, key and value entry, each being a finite sum of products.
-/
import proofs.«170130_j44255343018291_2_alg».proof.Proof.Gen.ReferenceIdeal.Read
import proofs.«170130_j44255343018291_2_alg».proof.Proof.LibAttnSwap
import proofs.«170130_j44255343018291_2_alg».proof.Proof.Stages
import proofs.«170130_j44255343018291_2_alg».proof.Proof.LibMinMaxInf

noncomputable section

namespace Cert.ReferenceIdeal.RefValue

open Idealize.ShloMosaic Idealize.ShloMosaic.ValueIdx
open Cert.ReferenceIdeal Cert.ReferenceIdeal.Gen Cert.ReferenceIdeal.Read Cert.Lib.AttnSwap
open scoped BigOperators

variable (X : (⟨S4x2048x1024, .f32⟩ : BufTy).Contents (Elt Ideal)) (Wq : (⟨S3072x1024, .f32⟩ : BufTy).Contents (Elt Ideal))

/-! ## The layout stages -/

theorem q_eq : val_main_v4 (F := Ideal) X Wq = Cert.Stages.headsQ (val_main_v1 (F := Ideal) X Wq) := rfl
theorem k_eq : val_main_v6 (F := Ideal) X Wq = Cert.Stages.headsK (val_main_v1 (F := Ideal) X Wq) := rfl
theorem v_eq : val_main_v8 (F := Ideal) X Wq = Cert.Stages.headsV (val_main_v1 (F := Ideal) X Wq) := rfl
theorem merged_eq : val_main_v24 (F := Ideal) X Wq = Cert.Stages.merge (val_main_v23 (F := Ideal) X Wq) := rfl

/-! ## Index identities -/

theorem lidx9 (b : Fin 4) (h : Fin 16) (s k : Fin 2048) (d : Fin 64) : lidx_main_v9 (ix4 b h s k) d = ix4 b h s d := funext fun a => Fin.ext (by match a with | ⟨0, _⟩ => rfl | ⟨1, _⟩ => rfl | ⟨2, _⟩ => rfl | ⟨3, _⟩ => rfl)
theorem ridx9 (b : Fin 4) (h : Fin 16) (s k : Fin 2048) (d : Fin 64) : ridx_main_v9 (ix4 b h s k) d = ix4 b h k d := funext fun a => Fin.ext (by match a with | ⟨0, _⟩ => rfl | ⟨1, _⟩ => rfl | ⟨2, _⟩ => rfl | ⟨3, _⟩ => rfl)
theorem idx15_16 (b : Fin 4) (h : Fin 16) (s k : Fin 2048) : idx_main_v15 (idx_main_v16 (ix4 b h s k)) = ix3 b h s := funext fun a => Fin.ext (by match a with | ⟨0, _⟩ => rfl | ⟨1, _⟩ => rfl | ⟨2, _⟩ => rfl)
theorem idx20_21 (b : Fin 4) (h : Fin 16) (s k : Fin 2048) : idx_main_v20 (idx_main_v21 (ix4 b h s k)) = ix3 b h s := funext fun a => Fin.ext (by match a with | ⟨0, _⟩ => rfl | ⟨1, _⟩ => rfl | ⟨2, _⟩ => rfl)
theorem idx19 (b : Fin 4) (h : Fin 16) (s k : Fin 2048) : idx_main_v19 (ix3 b h s) k = ix4 b h s k := funext fun a => Fin.ext (by match a with | ⟨0, _⟩ => rfl | ⟨1, _⟩ => rfl | ⟨2, _⟩ => rfl | ⟨3, _⟩ => rfl)
theorem lidx23 (b : Fin 4) (h : Fin 16) (s : Fin 2048) (j : Fin 64) (k : Fin 2048) : lidx_main_v23 (ix4 b h s j) k = ix4 b h s k := funext fun a => Fin.ext (by match a with | ⟨0, _⟩ => rfl | ⟨1, _⟩ => rfl | ⟨2, _⟩ => rfl | ⟨3, _⟩ => rfl)
theorem ridx23 (b : Fin 4) (h : Fin 16) (s : Fin 2048) (j : Fin 64) (k : Fin 2048) : ridx_main_v23 (ix4 b h s j) k = ix4 b h k j := funext fun a => Fin.ext (by match a with | ⟨0, _⟩ => rfl | ⟨1, _⟩ => rfl | ⟨2, _⟩ => rfl | ⟨3, _⟩ => rfl)

/-! ## Attention at an index -/

/-- The reference's scaled scores of query (b, h, s) against every key position. -/
def sc (b : Fin 4) (h : Fin 16) (s : Fin 2048) : Fin 2048 → EReal :=
  score (fun d : Fin 64 => val_main_v4 (F := Ideal) X Wq (ix4 b h s d))
    (fun (k : Fin 2048) (d : Fin 64) => val_main_v6 (F := Ideal) X Wq (ix4 b h k d))

theorem score_at (b : Fin 4) (h : Fin 16) (s k : Fin 2048) :
    val_main_v11 (F := Ideal) X Wq (ix4 b h s k) = sc X Wq b h s k := by
  rw [val_main_v11_apply, val_main_v9_apply, val_main_v10_apply, val_main_cst_apply]
  unfold sc score scale
  refine congrArg (fun t : EReal => t * Ideal.ofBits .f32 0x3E000000#32) (Finset.sum_congr rfl fun d _ => ?_)
  rw [lidx9, ridx9]

theorem max_at (b : Fin 4) (h : Fin 16) (s : Fin 2048) :
    val_main_v14 (F := Ideal) X Wq (ix3 b h s) = (Finset.univ : Finset (Fin 2048)).sup (sc X Wq b h s) := by
  rw [val_main_v14_apply, val_main_v13_apply, val_main_cst_1_apply]
  show max (Ideal.ofBits .f32 0xFF800000#32) (val_main_v12 (F := Ideal) X Wq (ix3 b h s)) = _
  rw [Cert.Lib.MinMaxInf.ofBits_negInf_f32, max_eq_right bot_le]
  unfold val_main_v12
  rw [Cert.Lib.MinMaxInf.hostReduce_maximumf_single _ _ reducesTo_S4x16x2048x2048_S4x16x2048_d3 (by decide) h_S_ (ix3 b h s)]
  show Ideal.ofBits .f32 0xFF800000#32 ⊔ _ = _
  rw [Cert.Lib.MinMaxInf.ofBits_negInf_f32, bot_sup_eq]
  exact Finset.sup_congr rfl fun k _ =>
    (congrArg (val_main_v11 (F := Ideal) X Wq) (funext fun a => Fin.ext (by match a with | ⟨0, _⟩ => rfl | ⟨1, _⟩ => rfl | ⟨2, _⟩ => rfl | ⟨3, _⟩ => rfl))).trans (score_at X Wq b h s k)

theorem exp_at (b : Fin 4) (h : Fin 16) (s k : Fin 2048) :
    val_main_v18 (F := Ideal) X Wq (ix4 b h s k) = expShift (sc X Wq b h s) k := by
  rw [val_main_v18_apply, val_main_v17_apply, val_main_v16_apply, val_main_v15_apply, idx15_16, max_at, score_at]
  rfl

theorem sum_at (b : Fin 4) (h : Fin 16) (s k : Fin 2048) :
    val_main_v21 (F := Ideal) X Wq (ix4 b h s k) = ∑ k' : Fin 2048, expShift (sc X Wq b h s) k' := by
  rw [val_main_v21_apply, val_main_v20_apply, idx20_21, val_main_v19_apply, val_main_cst_2_apply]
  show Ideal.ofBits .f32 0x00000000#32 + _ = _
  rw [Ideal.ofBits_zero_f32, zero_add]
  exact Finset.sum_congr rfl fun k' _ => by rw [idx19, exp_at]

/-- The reference's attention array at (b, h, s, j): divide every shifted exponential by their sum, then weigh the values. -/
theorem attn_at (b : Fin 4) (h : Fin 16) (s : Fin 2048) (j : Fin 64) :
    val_main_v23 (F := Ideal) X Wq (ix4 b h s j)
      = attnDivBefore (sc X Wq b h s) (fun k : Fin 2048 => val_main_v8 (F := Ideal) X Wq (ix4 b h k j)) := by
  rw [val_main_v23_apply]
  unfold attnDivBefore
  refine Finset.sum_congr rfl fun k _ => ?_
  rw [lidx23, ridx23, val_main_v22_apply, exp_at, sum_at]
  rfl

/-! ## Real-valued arguments give real-valued queries, keys and values -/

section Real
variable (hX : ∀ i, IsReal (X i)) (hW : ∀ i, IsReal (Wq i))
include hX hW

theorem proj_real (i : S4x2048x3072.Idx) : IsReal (val_main_v0 (F := Ideal) X Wq i) := by
  rw [val_main_v0_apply]
  exact isReal_sum_mul _ _ (fun k => hX _) (fun k => hW _)

theorem q_real (i : S4x16x2048x64.Idx) : IsReal (val_main_v4 (F := Ideal) X Wq i) := by
  rw [val_main_v4_apply, val_main_v3_apply, val_main_v2_apply, val_main_v1_apply]
  exact proj_real X Wq hX hW _
theorem k_real (i : S4x16x2048x64.Idx) : IsReal (val_main_v6 (F := Ideal) X Wq i) := by
  rw [val_main_v6_apply, val_main_v5_apply, val_main_v2_apply, val_main_v1_apply]
  exact proj_real X Wq hX hW _
theorem v_real (i : S4x16x2048x64.Idx) : IsReal (val_main_v8 (F := Ideal) X Wq i) := by
  rw [val_main_v8_apply, val_main_v7_apply, val_main_v2_apply, val_main_v1_apply]
  exact proj_real X Wq hX hW _

theorem sc_real (b : Fin 4) (h : Fin 16) (s k : Fin 2048) : IsReal (sc X Wq b h s k) :=
  isReal_score _ _ (fun d => q_real X Wq hX hW _) (fun c d => k_real X Wq hX hW _) k

/-- With real-valued activations and fused weights the reference's attention array is also the "weigh, then divide once"
    arrangement. -/
theorem attn_at_after (b : Fin 4) (h : Fin 16) (s : Fin 2048) (j : Fin 64) :
    val_main_v23 (F := Ideal) X Wq (ix4 b h s j)
      = attnDivAfter (sc X Wq b h s) (fun k : Fin 2048 => val_main_v8 (F := Ideal) X Wq (ix4 b h k j)) :=
  (attn_at X Wq b h s j).trans
    (attn_div_swap (by decide) _ _ (sc_real X Wq hX hW b h s) (fun k => v_real X Wq hX hW _)).symm

end Real

/-! ## The output projection at an index -/

theorem lidx26 (b : Fin 4) (s : Fin 2048) (e d : Fin 1024) : lidx_main_v26 (ix3 b s e) d = ix3 b s d := funext fun a => Fin.ext (by match a with | ⟨0, _⟩ => rfl | ⟨1, _⟩ => rfl | ⟨2, _⟩ => rfl)
theorem ridx26 (b : Fin 4) (s : Fin 2048) (e d : Fin 1024) : ridx_main_v26 (ix3 b s e) d = ix2 e d := funext fun a => Fin.ext (by match a with | ⟨0, _⟩ => rfl | ⟨1, _⟩ => rfl)
theorem idx27_28 (b : Fin 4) (s : Fin 2048) (e : Fin 1024) : idx_main_v27 (idx_main_v28 (ix3 b s e)) = ix1 e := funext fun a => Fin.ext (by match a with | ⟨0, _⟩ => rfl)

/-- The reference's result at (b, s, e): row (b, s) of the re-laid attention array against row e of the output weights,
    plus the bias entry e. -/
theorem result_at (Wo : (⟨S1024x1024, .f32⟩ : BufTy).Contents (Elt Ideal)) (B : (⟨S1024, .f32⟩ : BufTy).Contents (Elt Ideal))
    (b : Fin 4) (s : Fin 2048) (e : Fin 1024) :
    val_main_v29 (F := Ideal) X Wq Wo B (ix3 b s e)
      = (∑ d : Fin 1024, val_main_v25 (F := Ideal) X Wq (ix3 b s d) * Wo (ix2 e d)) + B (ix1 e) := by
  rw [val_main_v29_apply, val_main_v26_apply, val_main_v28_apply, val_main_v27_apply, idx27_28]
  refine congrArg (fun t : EReal => t + B (ix1 e)) (Finset.sum_congr rfl fun d _ => ?_)
  rw [lidx26, ridx26]

end Cert.ReferenceIdeal.RefValue

end
-- ==== Proof.Layout.lean ====
/-
  More layout maps read at an index: the transpose of a matrix, a vector cast to a row, a (batch, position, head, lane)
  array flattened two ways, and the fused projection's rows split into (batch, position, part, head, lane).

  Every reshape preserves the position in row-major order; each lemma names the source index and checks that arithmetic.
-/
import proofs.«170130_j44255343018291_2_alg».proof.Proof.Stages

noncomputable section

namespace Cert.Stages

open Idealize.ShloMosaic Idealize.ShloMosaic.ValueIdx Cert.ReferenceIdeal Cert.ReferenceIdeal.Gen

/-- A transposed matrix at (d, e) is the matrix at (e, d). -/
theorem transpose2_apply {n k : ℕ} (a : (⟨2, ![n, k]⟩ : Shape).Idx → EReal)
    (ht : (⟨2, ![n, k]⟩ : Shape).Transposes [1, 0] ⟨2, ![k, n]⟩) (d : Fin k) (e : Fin n) :
    transpose ⟨2, ![k, n]⟩ [1, 0] a ht (ix2 d e) = a (ix2 e d) :=
  transpose_apply [1, 0] a ht _ _ (fun b => match b with
    | ⟨0, _⟩ => rfl
    | ⟨1, _⟩ => rfl)

/-- A vector cast to a one-row matrix, at (0, e), is the vector at e. -/
theorem row_apply {n : ℕ} (a : (⟨1, ![n]⟩ : Shape).Idx → EReal) (hc : (⟨1, ![n]⟩ : Shape).ShapeCasts ⟨2, ![1, n]⟩) (e : Fin n) :
    shapeCast ⟨2, ![1, n]⟩ a hc (ix2 (0 : Fin 1) e) = a (ix1 e) :=
  shapeCast_apply a hc _ _ (by
    rw [Shape.rowMajor_val_one, Shape.rowMajor_val_two]
    show e.val = 0 * n + e.val
    omega)

/-- The source index of entry (b, s, d) of a (batch, position, head, lane) array flattened along its last two axes. -/
def laneIdx (b : Fin 4) (s : Fin 2048) (d : Fin 1024) : S4x2048x16x64.Idx :=
  ix4 b s (⟨d.val / 64, by omega⟩ : Fin 16) (⟨d.val % 64, by omega⟩ : Fin 64)

/-- Flattening (head, lane) only: entry (b, s, d). -/
theorem flatLanes_apply (a : S4x2048x16x64.Idx → EReal) (hc : S4x2048x16x64.ShapeCasts ⟨3, ![4, 2048, 1024]⟩)
    (b : Fin 4) (s : Fin 2048) (d : Fin 1024) :
    shapeCast ⟨3, ![4, 2048, 1024]⟩ a hc (ix3 b s d) = a (laneIdx b s d) :=
  shapeCast_apply a hc _ _ (by
    rw [Shape.rowMajor_val_four, Shape.rowMajor_val_three]
    show ((b.val * 2048 + s.val) * 16 + d.val / 64) * 64 + d.val % 64 = (b.val * 2048 + s.val) * 1024 + d.val
    omega)

/-- Flattening (batch, position) as well: entry (2048 b + s, d) is the same source entry. -/
theorem flatRowsLanes_apply (a : S4x2048x16x64.Idx → EReal) (hc : S4x2048x16x64.ShapeCasts ⟨2, ![8192, 1024]⟩)
    (b : Fin 4) (s : Fin 2048) (d : Fin 1024) :
    shapeCast ⟨2, ![8192, 1024]⟩ a hc (ix2 (bs b s) d) = a (laneIdx b s d) :=
  shapeCast_apply a hc _ _ (by
    rw [Shape.rowMajor_val_four, Shape.rowMajor_val_two]
    show ((b.val * 2048 + s.val) * 16 + d.val / 64) * 64 + d.val % 64 = (2048 * b.val + s.val) * 1024 + d.val
    omega)

/-- The [8192, 3072] product split into (batch, position, part, head, lane), read at an index whose image under the
    reshape from (batch, position, column) is `j`: row `2048 · j 0 + j 1`, column `j 2`. -/
theorem splitProj_apply (a : (⟨2, ![8192, 3072]⟩ : Shape).Idx → EReal)
    (hc : (⟨2, ![8192, 3072]⟩ : Shape).ShapeCasts S4x2048x3x16x64) (i : S4x2048x3x16x64.Idx)
    (j0 : Fin 4) (j1 : Fin 2048) (j2 : Fin 3072)
    (hj : (j0.val * 2048 + j1.val) * 3072 + j2.val
      = (((((i 0).val * 2048 + (i 1).val) * 3 + (i 2).val) * 16 + (i 3).val) * 64 + (i 4).val)) :
    shapeCast S4x2048x3x16x64 a hc i = a (ix2 (bs j0 j1) j2) :=
  shapeCast_apply a hc _ _ (by
    rw [Shape.rowMajor_val_two, Shape.rowMajor_val_five]
    show (2048 * j0.val + j1.val) * 3072 + j2.val
      = ((((i 0).val * 2048 + (i 1).val) * 3 + (i 2).val) * 16 + (i 3).val) * 64 + (i 4).val
    omega)

end Cert.Stages

end
-- ==== Proof.Bridge.lean ====
/-
  The idealized kernel's result is the idealized reference's, as whole arrays.

  Three joins, each index by index.  (1) The first launch's [8192, 3072] product, split into (batch, position, part, head,
  lane), is the reference's fused projection: row `2048 b + s` of the flattened activations is row (b, s), and the
  transposed weights at (d, e) are the weights at (e, d).  (2) The second launch's output over the fused (batch, head)
  axis, split back, is the reference's attention array: slice `16 b + h` of the queries, keys and values is head (b, h),
  the launch computes "weigh by the shifted exponentials, divide once by their sum", and for real-valued inputs that is
  the reference's "divide first, then weigh".  (3) The third launch's rows, split back into (batch, position), are the
  reference's result: the same re-laid attention array against the transposed output weights, plus the bias.
  Each launch's output array enters through one fact: what it holds at an index as a function of the arrays it read.
-/
import proofs.«170130_j44255343018291_2_alg».proof.Proof.KernelHost
import proofs.«170130_j44255343018291_2_alg».proof.Proof.RefValue
import proofs.«170130_j44255343018291_2_alg».proof.Proof.Layout

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.Lib.AttnSwap
open scoped BigOperators

variable (m : (ℓ : Loc nD τ sig) → Buf (Elt Ideal) ℓ) (ρ : Dev nD → PrngReg) (c : Dev nD)

/-- The activations, the fused weights, the output weights and the bias on core `c`, as launched. -/
abbrev aX : S4x2048x1024.Idx → EReal := m ((c : Thread nD τ).loc main_arg0)
abbrev aWq : S3072x1024.Idx → EReal := m ((c : Thread nD τ).loc main_arg1)
abbrev aWo : S1024x1024.Idx → EReal := m ((c : Thread nD τ).loc main_arg2)
abbrev aB : S1024.Idx → EReal := m ((c : Thread nD τ).loc main_arg3)

/-! ## (1) The fused projection -/

section Proj
variable (R0 : ∀ (r : Fin 8192) (e : Fin 3072) {A0 : S8192x1024.Idx → EReal} {A1 : S1024x3072.Idx → EReal}
    (h0 : V1 m ρ c main_v3 = A0) (h1 : V1 m ρ c main_v2 = A1),
    (dat0 (F := Ideal) (V1 m ρ) c).arrAt 2 cfg0.N (ix2 r e) = ∑ d : Fin 1024, A0 (ix2 r d) * A1 (ix2 d e))
include R0

theorem proj_eq :
    shapeCast S4x2048x3x16x64 (W2 m ρ c (Proc.devRef .tc main_v4)) shapeCasts_S8192x3072_S4x2048x3x16x64
      = Cert.ReferenceIdeal.Read.val_main_v1 (F := Ideal) (aX m c) (aWq m c) := by
  funext i
  show (_ : EReal) = (_ : EReal)
  have h0 : (i 0).val < 4 := (i 0).isLt
  have h1 : (i 1).val < 2048 := (i 1).isLt
  have h2 : (i 2).val < 3 := (i 2).isLt
  have h3 : (i 3).val < 16 := (i 3).isLt
  have h4 : (i 4).val < 64 := (i 4).isLt
  obtain ⟨j0, hj0⟩ : ∃ j0 : Fin 4, j0.val = (Cert.ReferenceIdeal.Read.idx_main_v1 i 0).val :=
    ⟨⟨_, (Cert.ReferenceIdeal.Read.idx_main_v1 i 0).isLt⟩, rfl⟩
  obtain ⟨j1, hj1⟩ : ∃ j1 : Fin 2048, j1.val = (Cert.ReferenceIdeal.Read.idx_main_v1 i 1).val :=
    ⟨⟨_, (Cert.ReferenceIdeal.Read.idx_main_v1 i 1).isLt⟩, rfl⟩
  obtain ⟨j2, hj2⟩ : ∃ j2 : Fin 3072, j2.val = (Cert.ReferenceIdeal.Read.idx_main_v1 i 2).val :=
    ⟨⟨_, (Cert.ReferenceIdeal.Read.idx_main_v1 i 2).isLt⟩, rfl⟩
  rw [Cert.Stages.splitProj_apply _ _ i j0 j1 j2 (by
      rw [hj0, hj1, hj2]
      show ((((((i 0).val * 2048 + (i 1).val) * 3 + (i 2).val) * 16 + (i 3).val) * 64 + (i 4).val) / 6291456 * 2048
          + (((((i 0).val * 2048 + (i 1).val) * 3 + (i 2).val) * 16 + (i 3).val) * 64 + (i 4).val) / 3072 % 2048) * 3072
          + (((((i 0).val * 2048 + (i 1).val) * 3 + (i 2).val) * 16 + (i 3).val) * 64 + (i 4).val) % 3072
        = ((((i 0).val * 2048 + (i 1).val) * 3 + (i 2).val) * 16 + (i 3).val) * 64 + (i 4).val
      omega)]
  rw [Cert.KernelIdeal.HostValue.out0, R0 _ _ (Cert.KernelIdeal.HostValue.rows_x m ρ c) (Cert.KernelIdeal.HostValue.wT_qkv m ρ c),
    Cert.ReferenceIdeal.Read.val_main_v1_apply, Cert.ReferenceIdeal.Read.val_main_v0_apply]
  refine Finset.sum_congr rfl fun d _ => ?_
  refine congrArg₂ (fun a b : EReal => a * b) ?_ ?_
  · rw [Cert.Stages.fuseRows_apply]
    exact congrArg (aX m c) (funext fun a => Fin.ext (by match a with | ⟨0, _⟩ => exact hj0 | ⟨1, _⟩ => exact hj1 | ⟨2, _⟩ => rfl))
  · rw [Cert.Stages.transpose2_apply]
    exact congrArg (aWq m c) (funext fun a => Fin.ext (by match a with | ⟨0, _⟩ => exact hj2 | ⟨1, _⟩ => rfl))

/-! ## (2) The attention array -/

/-- The kernel's queries, keys and values over the fused (batch, head) axis, with the first join rewritten in. -/
theorem q_slices : W3 m ρ c (Proc.devRef .tc main_v9)
    = shapeCast S64x2048x64 (Cert.ReferenceIdeal.Read.val_main_v4 (F := Ideal) (aX m c) (aWq m c)) shapeCasts_S4x16x2048x64_S64x2048x64 := by
  rw [Cert.KernelIdeal.HostValue.slices_q, proj_eq m ρ c R0, Cert.ReferenceIdeal.RefValue.q_eq]
theorem k_slices : W3 m ρ c (Proc.devRef .tc main_v12)
    = shapeCast S64x2048x64 (Cert.ReferenceIdeal.Read.val_main_v6 (F := Ideal) (aX m c) (aWq m c)) shapeCasts_S4x16x2048x64_S64x2048x64 := by
  rw [Cert.KernelIdeal.HostValue.slices_k, proj_eq m ρ c R0, Cert.ReferenceIdeal.RefValue.k_eq]
theorem v_slices : W3 m ρ c (Proc.devRef .tc main_v15)
    = shapeCast S64x2048x64 (Cert.ReferenceIdeal.Read.val_main_v8 (F := Ideal) (aX m c) (aWq m c)) shapeCasts_S4x16x2048x64_S64x2048x64 := by
  rw [Cert.KernelIdeal.HostValue.slices_v, proj_eq m ρ c R0, Cert.ReferenceIdeal.RefValue.v_eq]

section Attn
variable (R1 : ∀ (g : Fin 64) (s : Fin 2048) (j : Fin 64) {Aq Ak Av : S64x2048x64.Idx → EReal}
    (hq : V3 m ρ c main_v9 = Aq) (hk : V3 m ρ c main_v12 = Ak) (hv : V3 m ρ c main_v15 = Av),
    (dat1 (F := Ideal) (V3 m ρ) c).arrAt 3 cfg1.N (ix3 g s j)
      = attnDivAfter (score (fun d : Fin 64 => Aq (ix3 g s d)) (fun (k : Fin 2048) (d : Fin 64) => Ak (ix3 g k d)))
          (fun k : Fin 2048 => Av (ix3 g k j)))
  (hX : ∀ i, IsReal (aX m c i)) (hW : ∀ i, IsReal (aWq m c i))
include R1 hX hW

theorem attn_eq :
    shapeCast S4x16x2048x64 (W4 m ρ c (Proc.devRef .tc main_v16)) shapeCasts_S64x2048x64_S4x16x2048x64
      = Cert.ReferenceIdeal.Read.val_main_v23 (F := Ideal) (aX m c) (aWq m c) := by
  funext i
  obtain ⟨b, h, s, j, rfl⟩ : ∃ (b : Fin 4) (h : Fin 16) (s : Fin 2048) (j : Fin 64), i = ix4 b h s j :=
    ⟨i 0, i 1, i 2, i 3, eq_ix4 i⟩
  show (_ : EReal) = (_ : EReal)
  rw [Cert.Stages.splitHeads_apply, Cert.KernelIdeal.HostValue.out1,
    R1 _ _ _ (q_slices m ρ c R0) (k_slices m ρ c R0) (v_slices m ρ c R0),
    Cert.ReferenceIdeal.RefValue.attn_at_after (aX m c) (aWq m c) hX hW b h s j]
  unfold Cert.ReferenceIdeal.RefValue.sc
  simp only [Cert.Stages.fuseHeads_apply]

/-! ## (3) The result -/

section Out
variable (R2 : ∀ (r : Fin 8192) (e : Fin 1024) {A0 : S8192x1024.Idx → EReal} {A1 : S1024x1024.Idx → EReal} {B : S1x1024.Idx → EReal}
    (h0 : V5 m ρ c main_v19 = A0) (h1 : V5 m ρ c main_v21 = A1) (h2 : V5 m ρ c main_v22 = B),
    (dat2 (F := Ideal) (V5 m ρ) c).arrAt 3 cfg2.N (ix2 r e)
      = (∑ d : Fin 1024, A0 (ix2 r d) * A1 (ix2 d e)) + B (ix2 (0 : Fin 1) e))
include R2

theorem result_eq :
    W7 m ρ c (Proc.devRef .tc main_v24)
      = Cert.ReferenceIdeal.Read.val_main_v29 (F := Ideal) (aX m c) (aWq m c) (aWo m c) (aB m c) := by
  funext i
  obtain ⟨b, s, e, rfl⟩ : ∃ (b : Fin 4) (s : Fin 2048) (e : Fin 1024), i = ix3 b s e := ⟨i 0, i 1, i 2, eq_ix3 i⟩
  show (_ : EReal) = (_ : EReal)
  have hrows : W5 m ρ c (Proc.devRef .tc main_v19)
      = shapeCast S8192x1024 (Cert.ReferenceIdeal.Read.val_main_v24 (F := Ideal) (aX m c) (aWq m c)) shapeCasts_S4x2048x16x64_S8192x1024 := by
    rw [Cert.KernelIdeal.HostValue.rows_attn, attn_eq m ρ c R0 R1 hX hW, Cert.ReferenceIdeal.RefValue.merged_eq]
  rw [Cert.KernelIdeal.HostValue.result, Cert.Stages.splitRows_apply, Cert.KernelIdeal.HostValue.out2,
    R2 _ _ hrows (Cert.KernelIdeal.HostValue.wT_out m ρ c) (Cert.KernelIdeal.HostValue.bias_row m ρ c),
    Cert.ReferenceIdeal.RefValue.result_at]
  refine congrArg₂ (fun a b : EReal => a + b) (Finset.sum_congr rfl fun d _ => congrArg₂ (fun a b : EReal => a * b) ?_ ?_) ?_
  · rw [Cert.Stages.flatRowsLanes_apply]
    exact (Cert.Stages.flatLanes_apply _ _ b s d).symm
  · rw [Cert.Stages.transpose2_apply]
  · rw [Cert.Stages.row_apply]

end Out
end Attn
end Proj

end Cert.Bridge

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.DenseBlocks.lean ====
/-
  The two dense launches of the idealized kernel, from blocks to whole arrays.

  The first launch multiplies an [8192, 1024] array by a [1024, 3072] array; the third multiplies an [8192, 1024] array by a
  [1024, 1024] array and adds a [1, 1024] bias row to every row.  Each runs over a grid of 16 points: point t takes rows
  512 t … 512 t + 511 of the left array together with the whole right array (and the whole bias row), forms the product of
  the block into a zero accumulator, and writes rows 512 t … 512 t + 511 of the result.

  On the extended reals entry (p, q) of a block's product is row p of the left block against column q of the right array,
  the sum over k of x(p, k) · w(k, q); the change of float format after it is the identity, and the bias row spread over
  the rows adds its entry q.  Row p of block t is row 512 t + p of the left array, so what point t writes is block t of ONE
  whole-array function, the product (plus bias) of the arrays the launch finds in its operand buffers.  The 16 blocks tile
  the result, row r lying in block r / 512, so after the launch the result array is that function at every entry.
-/
import proofs.«170130_j44255343018291_2_alg».proof.Proof.Gen.KernelIdeal.Frame
import proofs.«170130_j44255343018291_2_alg».proof.Proof.LibDense
import Idealize.ShloMosaic.Lib.Pipeline.Value
import Idealize.ShloMosaic.Lib.ValueIdx
import Idealize.ShloMosaic.Lib.ValueLayout

set_option maxRecDepth 16384

noncomputable section

namespace Cert.KernelIdeal.DenseBlocks

open Idealize.ShloMosaic Idealize.ShloMosaic.ValueIdx Idealize.ShloMosaic.TcCoe Cert.KernelIdeal
open Idealize.ShloMosaic.Pipeline (Dat)
open scoped BigOperators

/-! ## The two bodies' results at an entry

Each dense body multiplies its block of rows by the whole weight matrix into a zero accumulator; entry `(p, q)` of the
product is row `p` of the left block against column `q` of the weights.  The first body then changes the float format,
which on the extended reals changes nothing; the second adds the bias row, spread over the rows, so entry `(p, q)` gains
the bias's entry `q`. -/

/-- The first dense body at entry `(p, q)`: row `p` of the left block against column `q` of the right block. -/
theorem pay0_at (x0 : Vec Ideal S512x1024 .bf16) (x1 : Vec Ideal S1024x3072 .bf16) (p : Fin 512) (q : Fin 3072) :
    Gen.k0_pay1 (F := Ideal) x0 x1 (ix2 p q) = Cert.Lib.Dense.rowDot x0 x1 p q := by
  unfold Gen.k0_pay1
  rw [shapeCast_self, shapeCast_self]
  exact Cert.Lib.Dense.matmul_zero_at (φ₁ := .bf16) (φ₂ := .bf16) dot_S512x1024_S1024x3072_S512x3072_1_0_0_1_n_n rfl rfl rfl rfl rfl rfl x0 x1 p q

/-- The second dense body at entry `(p, q)`: row `p` against column `q`, plus the bias row's entry `q`. -/
theorem pay2_at (x0 : Vec Ideal S512x1024 .bf16) (x1 : Vec Ideal S1024x1024 .bf16) (x2 : Vec Ideal S1x1024 .f32) (p : Fin 512) (q : Fin 1024) :
    Gen.k2_pay1 (F := Ideal) x0 x1 x2 (ix2 p q) = Cert.Lib.Dense.rowDot x0 x1 p q + x2 (ix2 (0 : Fin 1) q) := by
  unfold Gen.k2_pay1
  rw [shapeCast_self, shapeCast_self, shapeCast_self]
  refine (addf_apply (φ := .f32) _ _ _).trans ?_
  rw [broadcastTo_apply x2 _ (ix2 p q) (ix2 (0 : Fin 1) q) (fun a => by
    match a with
    | ⟨0, _⟩ => rfl
    | ⟨1, _⟩ => rfl)]
  exact congrArg (· + x2 (ix2 (0 : Fin 1) q)) (Cert.Lib.Dense.matmul_zero_at (φ₁ := .bf16) (φ₂ := .bf16) dot_S512x1024_S1024x1024_S512x1024_1_0_0_1_n_n rfl rfl rfl rfl rfl rfl x0 x1 p q)

/-! ## The whole-array functions

The first launch's result array is the product of its two argument arrays; the third launch's is the product plus the
bias row on every row. -/

/-- Entry `i` of the product of a `[8192, 1024]` array and a `[1024, 3072]` array. -/
def prod0 (A0 : S8192x1024.Idx → EReal) (A1 : S1024x3072.Idx → EReal) : S8192x3072.Idx → EReal :=
  fun i => Cert.Lib.Dense.rowDot A0 A1 (i 0) (i 1)

/-- Entry `i` of the product of a `[8192, 1024]` array and a `[1024, 1024]` array, plus the bias row. -/
def prod2 (A0 : S8192x1024.Idx → EReal) (A1 : S1024x1024.Idx → EReal) (B : S1x1024.Idx → EReal) : S8192x1024.Idx → EReal :=
  fun i => Cert.Lib.Dense.rowDot A0 A1 (i 0) (i 1) + B (ix2 (0 : Fin 1) (i 1))

theorem hz : (![0, 0] : Fin 2 → Nat) = fun _ => 0 := funext fun a => by fin_cases a <;> rfl

/-- A body's result on a block of 512 rows starting at row `512 b` is that block of the whole product: the left block
    holds rows `512 b …` of the left array, the right block is the whole right array. -/
theorem pay0_blk (x0 : Vec Ideal S512x1024 .bf16) (x1 : Vec Ideal S1024x3072 .bf16)
    (A0 : S8192x1024.Idx → EReal) (A1 : S1024x3072.Idx → EReal) (b : ℕ)
    (h0 : ∀ (x : S512x1024.Idx) (k : S8192x1024.Idx), (k 0).val = 512 * b + (x 0).val → (k 1).val = (x 1).val → x0 x = A0 k)
    (h1 : ∀ x : S1024x3072.Idx, x1 x = A1 x)
    (y : S512x3072.Idx) (i : S8192x3072.Idx) (hi0 : (i 0).val = 512 * b + (y 0).val) (hi1 : (i 1).val = (y 1).val) :
    Gen.k0_pay1 (F := Ideal) x0 x1 y = prod0 A0 A1 i := by
  obtain ⟨p, q, rfl⟩ : ∃ (p : Fin 512) (q : Fin 3072), y = ix2 p q := ⟨y 0, y 1, eq_ix2 y⟩
  obtain ⟨r, e, rfl⟩ : ∃ (r : Fin 8192) (e : Fin 3072), i = ix2 r e := ⟨i 0, i 1, eq_ix2 i⟩
  rw [pay0_at]
  have he : q = e := Fin.ext hi1.symm
  subst he
  unfold prod0 Cert.Lib.Dense.rowDot
  refine Finset.sum_congr rfl fun d _ => ?_
  rw [h0 (ix2 p d) (ix2 r d) hi0 rfl, h1]

/-! ## The first launch: blocks to the array

The grid has 16 points; point `t` reads rows `512 t … 512 t + 511` of the left array and the whole right array, and writes
rows `512 t … 512 t + 511` of the result. -/

section Region0

variable (V : (c : Dev nD) → (b : Ref sig .tc) → Buf (Elt Ideal) ((c : Thread nD τ).loc b))

/-- The block indices of the three windows at each point of the grid. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `512 t …` of the left array. -/
theorem iblk0_0_apply (c : Dev nD) (t : Fin cfg0.N) (x : S512x1024.Idx) (k : S8192x1024.Idx)
    (hk0 : (k 0).val = 512 * t.val + (x 0).val) (hk1 : (k 1).val = (x 1).val) :
    (Gen.iblk0 V c 0 t : Vec Ideal S512x1024 .bf16) x = (V c main_v3 : S8192x1024.Idx → EReal) k := by
  obtain ⟨e0, e1, -⟩ := idx0 t
  unfold Gen.iblk0
  rw [View.read_apply]
  show V c main_v3 _ = V c main_v3 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The right window's block at every point is the whole right array. -/
theorem iblk0_1_apply (c : Dev nD) (t : Fin cfg0.N) (x : S1024x3072.Idx) :
    (Gen.iblk0 V c 1 t : Vec Ideal S1024x3072 .bf16) x = (V c main_v2 : S1024x3072.Idx → EReal) x := by
  obtain ⟨-, -, e0, e1, -⟩ := idx0 t
  unfold Gen.iblk0
  rw [View.read_apply]
  show V c main_v2 _ = V c main_v2 _
  congr 1
  funext a
  apply Fin.ext
  match a with
  | ⟨0, _⟩ => show win0_1.index t 0 * 1024 + 1 * (x 0).val = (x 0).val; rw [e0]; omega
  | ⟨1, _⟩ => show win0_1.index t 1 * 3072 + 1 * (x 1).val = (x 1).val; rw [e1]; omega

/-- What point `t` writes back is block `t` of the whole product. -/
theorem flushed0_eq (c : Dev nD) (t : Fin cfg0.N) :
    (Gen.dat0 (F := Ideal) V c).flushed 2 t
      = ((cfg0.win 2).blk t).view.read (Elt Ideal) (prod0 (V c main_v3) (V c main_v2)) := by
  show (cfg0.win 2).cut (grid0.coords t) ((Gen.dat0 V c).after 2 t) = _
  rw [Gen.after0_2]
  unfold Gen.out0_2
  rw [View.canon_unit_zero hz]
  simp only [View.ld_unit_zero (S := S512x1024) hz, View.ld_unit_zero (S := S1024x3072) hz]
  obtain ⟨-, -, -, -, e0, e1⟩ := idx0 t
  funext j
  rw [View.read_apply]
  refine pay0_blk (Gen.iblk0 V c 0 t) (Gen.iblk0 V c 1 t) (V c main_v3) (V c main_v2) t.val
    (fun x k h0 h1 => iblk0_0_apply V c t x k h0 h1) (fun x => iblk0_1_apply V c t x) _ _ ?_ ?_
  · show win0_2.index t 0 * 512 + 1 * (j 0).val = 512 * t.val + (j 0).val
    rw [e0]; omega
  · show win0_2.index t 1 * 3072 + 1 * (j 1).val = (j 1).val
    rw [e1]; omega

end Region0

section Region0Array

variable (V : (c : Dev nD) → (b : Ref sig .tc) → Buf (Elt Ideal) ((c : Thread nD τ).loc b))

/-- An index of the result array lies in point `t`'s block iff each coordinate is in the block's range on its axis. -/
theorem mem_blk0 (t : Fin cfg0.N) (i : S8192x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v4).slice (win0_2.rect t)).set ↔ _
  rw [View.set_slice_whole, Rect.mem_set_unit]
  exact Iff.rfl

/-- After the launch the result array holds the whole product at every entry: the point whose block holds row `r` is
    `r / 512`, and it wrote its block of the product. -/
theorem region0_prod (c : Dev nD) (r : Fin 8192) (e : Fin 3072) :
    (Gen.dat0 (F := Ideal) V c).arrAt 2 cfg0.N (ix2 r e) = prod0 (V c main_v3) (V c main_v2) (ix2 r e) := by
  have hN : cfg0.N = 16 := Gen.N_0
  obtain ⟨t, ht⟩ : ∃ t : Fin cfg0.N, t.val = r.val / 512 := ⟨⟨r.val / 512, by rw [hN]; have := r.isLt; omega⟩, rfl⟩
  refine (Gen.dat0 (F := Ideal) V c).arrAt_apply_of_mem 2 (prod0 (V c main_v3) (V c main_v2))
    (fun t _ => flushed0_eq V c t) cfg0.N t (ix2 r e) t.isLt (Gen.flush0_2 t) ?_
  rw [mem_blk0]
  obtain ⟨-, -, -, -, e0, e1⟩ := idx0 t
  intro a
  match a with
  | ⟨0, _⟩ =>
    show win0_2.index t 0 * 512 ≤ r.val ∧ r.val < win0_2.index t 0 * 512 + 512
    rw [e0, ht]; omega
  | ⟨1, _⟩ =>
    show win0_2.index t 1 * 3072 ≤ e.val ∧ e.val < win0_2.index t 1 * 3072 + 3072
    rw [e1]; have := e.isLt; omega

/-- THE FIRST LAUNCH'S RESULT, entry by entry: row `r` of the left array against column `e` of the right array, the two
    arrays being whatever the launch finds in its operand buffers (`h0`, `h1`). -/
theorem region0_at (c : Dev nD) (r : Fin 8192) (e : Fin 3072)
    {A0 : S8192x1024.Idx → EReal} {A1 : S1024x3072.Idx → EReal} (h0 : V c main_v3 = A0) (h1 : V c main_v2 = A1) :
    (Gen.dat0 (F := Ideal) V c).arrAt 2 cfg0.N (ix2 r e) = ∑ d : Fin 1024, A0 (ix2 r d) * A1 (ix2 d e) := by
  subst h0 h1
  exact region0_prod V c r e

/-- The same with the sum named as a row against a column. -/
theorem region0_rowDot (c : Dev nD) (r : Fin 8192) (e : Fin 3072) :
    (Gen.dat0 (F := Ideal) V c).arrAt 2 cfg0.N (ix2 r e)
      = Cert.Lib.Dense.rowDot (M := 8192) (K := 1024) (N := 3072) (V c main_v3) (V c main_v2) r e :=
  region0_prod V c r e

end Region0Array

/-! ## The third launch: blocks to the array

The grid has 16 points; point `t` reads rows `512 t … 512 t + 511` of the left array, the whole weight matrix and the whole
bias row, and writes rows `512 t … 512 t + 511` of the result. -/

/-- The body's result on a block of 512 rows starting at row `512 b` is that block of the whole product plus bias. -/
theorem pay2_blk (x0 : Vec Ideal S512x1024 .bf16) (x1 : Vec Ideal S1024x1024 .bf16) (x2 : Vec Ideal S1x1024 .f32)
    (A0 : S8192x1024.Idx → EReal) (A1 : S1024x1024.Idx → EReal) (B : S1x1024.Idx → EReal) (b : ℕ)
    (h0 : ∀ (x : S512x1024.Idx) (k : S8192x1024.Idx), (k 0).val = 512 * b + (x 0).val → (k 1).val = (x 1).val → x0 x = A0 k)
    (h1 : ∀ x : S1024x1024.Idx, x1 x = A1 x) (h2 : ∀ x : S1x1024.Idx, x2 x = B x)
    (y : S512x1024.Idx) (i : S8192x1024.Idx) (hi0 : (i 0).val = 512 * b + (y 0).val) (hi1 : (i 1).val = (y 1).val) :
    Gen.k2_pay1 (F := Ideal) x0 x1 x2 y = prod2 A0 A1 B i := by
  obtain ⟨p, q, rfl⟩ : ∃ (p : Fin 512) (q : Fin 1024), y = ix2 p q := ⟨y 0, y 1, eq_ix2 y⟩
  obtain ⟨r, e, rfl⟩ : ∃ (r : Fin 8192) (e : Fin 1024), i = ix2 r e := ⟨i 0, i 1, eq_ix2 i⟩
  rw [pay2_at]
  have he : q = e := Fin.ext hi1.symm
  subst he
  unfold prod2 Cert.Lib.Dense.rowDot
  rw [h2]
  refine congrArg (· + B (ix2 (0 : Fin 1) q)) (Finset.sum_congr rfl fun d _ => ?_)
  rw [h0 (ix2 p d) (ix2 r d) hi0 rfl, h1]

section Region2

variable (V : (c : Dev nD) → (b : Ref sig .tc) → Buf (Elt Ideal) ((c : Thread nD τ).loc b))

/-- The block indices of the four windows at each point of the grid. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left window's block at point `t` is rows `512 t …` of the left array. -/
theorem iblk2_0_apply (c : Dev nD) (t : Fin cfg2.N) (x : S512x1024.Idx) (k : S8192x1024.Idx)
    (hk0 : (k 0).val = 512 * t.val + (x 0).val) (hk1 : (k 1).val = (x 1).val) :
    (Gen.iblk2 V c 0 t : Vec Ideal S512x1024 .bf16) x = (V c main_v19 : S8192x1024.Idx → EReal) k := by
  obtain ⟨e0, e1, -⟩ := idx2 t
  unfold Gen.iblk2
  rw [View.read_apply]
  show V c main_v19 _ = V c main_v19 _
  congr 1
  funext a
  apply Fin.ext
  match a with
  | ⟨0, _⟩ => show win2_0.index t 0 * 512 + 1 * (x 0).val = (k 0).val; rw [e0, hk0]; omega
  | ⟨1, _⟩ => show win2_0.index t 1 * 1024 + 1 * (x 1).val = (k 1).val; rw [e1, hk1]; omega

/-- The weight window's block at every point is the whole weight matrix. -/
theorem iblk2_1_apply (c : Dev nD) (t : Fin cfg2.N) (x : S1024x1024.Idx) :
    (Gen.iblk2 V c 1 t : Vec Ideal S1024x1024 .bf16) x = (V c main_v21 : S1024x1024.Idx → EReal) x := by
  obtain ⟨-, -, e0, e1, -⟩ := idx2 t
  unfold Gen.iblk2
  rw [View.read_apply]
  show V c main_v21 _ = V c main_v21 _
  congr 1
  funext a
  apply Fin.ext
  match a with
  | ⟨0, _⟩ => show win2_1.index t 0 * 1024 + 1 * (x 0).val = (x 0).val; rw [e0]; omega
  | ⟨1, _⟩ => show win2_1.index t 1 * 1024 + 1 * (x 1).val = (x 1).val; rw [e1]; omega

/-- The bias window's block at every point is the whole bias row. -/
theorem iblk2_2_apply (c : Dev nD) (t : Fin cfg2.N) (x : S1x1024.Idx) :
    (Gen.iblk2 V c 2 t : Vec Ideal S1x1024 .f32) x = (V c main_v22 : S1x1024.Idx → EReal) x := by
  obtain ⟨-, -, -, -, e0, e1, -⟩ := idx2 t
  unfold Gen.iblk2
  rw [View.read_apply]
  show V c main_v22 _ = V c main_v22 _
  congr 1
  funext a
  apply Fin.ext
  match a with
  | ⟨0, _⟩ => show win2_2.index t 0 * 1 + 1 * (x 0).val = (x 0).val; rw [e0]; omega
  | ⟨1, _⟩ => show win2_2.index t 1 * 1024 + 1 * (x 1).val = (x 1).val; rw [e1]; omega

/-- What point `t` writes back is block `t` of the whole product plus bias. -/
theorem flushed2_eq (c : Dev nD) (t : Fin cfg2.N) :
    (Gen.dat2 (F := Ideal) V c).flushed 3 t
      = ((cfg2.win 3).blk t).view.read (Elt Ideal) (prod2 (V c main_v19) (V c main_v21) (V c main_v22)) := by
  show (cfg2.win 3).cut (grid2.coords t) ((Gen.dat2 V c).after 3 t) = _
  rw [Gen.after2_3]
  unfold Gen.out2_3
  rw [View.canon_unit_zero hz]
  simp only [View.ld_unit_zero (S := S512x1024) hz, View.ld_unit_zero (S := S1024x1024) hz, View.ld_unit_zero (S := S1x1024) hz]
  obtain ⟨-, -, -, -, -, -, e0, e1⟩ := idx2 t
  funext j
  rw [View.read_apply]
  refine pay2_blk (Gen.iblk2 V c 0 t) (Gen.iblk2 V c 1 t) (Gen.iblk2 V c 2 t) (V c main_v19) (V c main_v21) (V c main_v22) t.val
    (fun x k h0 h1 => iblk2_0_apply V c t x k h0 h1) (fun x => iblk2_1_apply V c t x) (fun x => iblk2_2_apply V c t x) _ _ ?_ ?_
  · show win2_3.index t 0 * 512 + 1 * (j 0).val = 512 * t.val + (j 0).val
    rw [e0]; omega
  · show win2_3.index t 1 * 1024 + 1 * (j 1).val = (j 1).val
    rw [e1]; omega

/-- An index of the result array lies in point `t`'s block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v23).slice (win2_3.rect t)).set ↔ _
  rw [View.set_slice_whole, Rect.mem_set_unit]
  exact Iff.rfl

/-- After the launch the result array holds the whole product plus bias at every entry: the point whose block holds row
    `r` is `r / 512`, and it wrote its block. -/
theorem region2_prod (c : Dev nD) (r : Fin 8192) (e : Fin 1024) :
    (Gen.dat2 (F := Ideal) V c).arrAt 3 cfg2.N (ix2 r e) = prod2 (V c main_v19) (V c main_v21) (V c main_v22) (ix2 r e) := by
  have hN : cfg2.N = 16 := Gen.N_2
  obtain ⟨t, ht⟩ : ∃ t : Fin cfg2.N, t.val = r.val / 512 := ⟨⟨r.val / 512, by rw [hN]; have := r.isLt; omega⟩, rfl⟩
  refine (Gen.dat2 (F := Ideal) V c).arrAt_apply_of_mem 3 (prod2 (V c main_v19) (V c main_v21) (V c main_v22))
    (fun t _ => flushed2_eq V c t) cfg2.N t (ix2 r e) t.isLt (Gen.flush2_3 t) ?_
  rw [mem_blk2]
  obtain ⟨-, -, -, -, -, -, e0, e1⟩ := idx2 t
  intro a
  match a with
  | ⟨0, _⟩ =>
    show win2_3.index t 0 * 512 ≤ r.val ∧ r.val < win2_3.index t 0 * 512 + 512
    rw [e0, ht]; omega
  | ⟨1, _⟩ =>
    show win2_3.index t 1 * 1024 ≤ e.val ∧ e.val < win2_3.index t 1 * 1024 + 1024
    rw [e1]; have := e.isLt; omega

/-- THE THIRD LAUNCH'S RESULT, entry by entry: row `r` of the left array against column `e` of the weights, plus the bias
    row's entry `e`, the three arrays being whatever the launch finds in its operand buffers (`h0`, `h1`, `h2`). -/
theorem region2_at (c : Dev nD) (r : Fin 8192) (e : Fin 1024)
    {A0 : S8192x1024.Idx → EReal} {A1 : S1024x1024.Idx → EReal} {B : S1x1024.Idx → EReal}
    (h0 : V c main_v19 = A0) (h1 : V c main_v21 = A1) (h2 : V c main_v22 = B) :
    (Gen.dat2 (F := Ideal) V c).arrAt 3 cfg2.N (ix2 r e)
      = (∑ d : Fin 1024, A0 (ix2 r d) * A1 (ix2 d e)) + B (ix2 (0 : Fin 1) e) := by
  subst h0 h1 h2
  exact region2_prod V c r e

end Region2

end Cert.KernelIdeal.DenseBlocks

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«170130_j44255343018291_2_alg».proof.Proof.LibMinMaxInf
import proofs.«170130_j44255343018291_2_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.AttnBlocks.lean ====
/-
  The attention launch of the idealized kernel, from its blocks to its whole result array.

  The launch runs a grid of 64 × 8 points; point (g, qi) stages rows 256·qi … 256·qi + 255 of head-batch g of the query
  array, and all 2048 rows of head-batch g of the key array and of the value array, and writes back rows
  256·qi … 256·qi + 255 of head-batch g of the result.  For one query row q the body computes the scaled scores
  s c = (∑ d, q d · k c d) · (1/8) against the 2048 key rows, their maximum M, the shifted exponentials e c = exp (s c − M),
  the weighted sum ∑ c, e c · v c j of column j of the value block, and divides it once by ∑ c, e c.

  Read at an index on the extended reals: first the body's result at entry (0, r, j) of its block, as that expression of
  row r of the query block and of the key and value blocks; then what a grid point writes back as a block of ONE function of
  the three arrays; and, since the 512 result blocks tile the result array, the array after the launch at every index.
-/
import proofs.«170130_j44255343018291_2_alg».proof.Proof.Gen.KernelIdeal.Frame
import proofs.«170130_j44255343018291_2_alg».proof.Proof.LibAttnSwap
import proofs.«170130_j44255343018291_2_alg».proof.Proof.LibDense
import proofs.«170130_j44255343018291_2_alg».proof.Proof.LibDenseNT
import proofs.«170130_j44255343018291_2_alg».proof.Proof.LibSoftmaxRows
import proofs.«170130_j44255343018291_2_alg».proof.Proof.LibKeepdims
import Idealize.ShloMosaic.Lib.Pipeline.Value
import Idealize.ShloMosaic.Lib.ValueIdx

set_option maxRecDepth 16384

noncomputable section

namespace Cert.AttnBlocks

open Idealize.ShloMosaic Idealize.ShloMosaic.TcCoe Idealize.ShloMosaic.ValueIdx Idealize.SL.Sem
open Idealize.ShloMosaic.Pipeline (Dat)
open Cert.KernelIdeal Cert.KernelIdeal.Gen Cert.Lib.AttnSwap
open scoped BigOperators

/-! ## The leading unit axis -/

/-- A `[1, a, b]` block viewed as the matrix `[a, b]` reads, at `(p, q)`, the block's entry `(0, p, q)`. -/
theorem dropLead_apply {α : Type} {a b : ℕ} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- A matrix `[a, b]` stored as the block `[1, a, b]` reads, at `(u, p, q)`, the matrix's entry `(p, q)`. -/
theorem addLead_apply {α : Type} {a b : ℕ} (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

/-! ## The body's arithmetic at an index -/

/-- The scaled scores: the product of the query tile against the key rows, each contracted along its second axis, into
    zero, times the splat scale, reads at `(r, k)` the scaled score of query row `r` against key row `k`. -/
theorem scores_apply (q : FVec Ideal S256x64 .bf16) (k : FVec Ideal S2048x64 .bf16) (r : Fin 256) (c : Fin 2048) :
    mulf (matmul dot_S256x64_S2048x64_S256x2048_1_1_0_0_n_n none q k (constant S256x2048 .f32 0x00000000#32))
        (broadcast S256x2048 (Scalar.ofBits (F := Ideal) .f32 0x3E000000#32)) (ix2 r c)
      = score (fun d : Fin 64 => q (ix2 r d)) (fun (c' : Fin 2048) (d : Fin 64) => k (ix2 c' d)) c := by
  show matmul dot_S256x64_S2048x64_S256x2048_1_1_0_0_n_n none q k (constant S256x2048 .f32 0x00000000#32) (ix2 r c) * scale = _
  rw [Cert.Lib.DenseNT.matmul_zero_at dot_S256x64_S2048x64_S256x2048_1_1_0_0_n_n rfl rfl rfl rfl rfl rfl none q k r c]
  rfl

/-- The softmax-weighted sum, divided once: from the scaled scores `s` of a tile and the value rows `v`, the row maxima and
    the row sums of the shifted exponentials each kept as a column and spread back, the exponentials multiplied into the
    value rows and the product divided by the spread row sums.  At `(r, j)` it is the weighted sum of column `j` of `v` by
    the shifted exponentials of row `r` of `s`, over their sum. -/
theorem weigh_apply (s : FVec Ideal S256x2048 .f32) (v : FVec Ideal S2048x64 .bf16)
    (hred : S256x2048.Reduces [(1 : Fin 2)] S256) (hcast : S256.ShapeCasts S256x1)
    (hb : S256x1.Broadcasts S256x2048) (hb' : S256x1.Broadcasts S256x64)
    (hφ : FKind.Formats .f32) (hmax : (0xFF800000#32 : BitVec 32) = FKind.maximumf.neutral .f32 hφ)
    (hadd : (0x00000000#32 : BitVec 32) = FKind.add.neutral .f32 hφ) (hlt : FTy.bits .bf16 < FTy.bits .f32)
    (r : Fin 256) (j : Fin 64) :
    divf
      (matmul dot_S256x2048_S2048x64_S256x64_1_0_0_1_n_n none
        (truncf .bf16 (exp (subf s (broadcastTo S256x2048 (shapeCast S256x1
          (multiReduction .maximumf [(1 : Fin 2)] S256 s 0xFF800000#32 hred hφ hmax) hcast) hb))) hlt)
        v (constant S256x64 .f32 0x00000000#32))
      (broadcastTo S256x64 (shapeCast S256x1
        (multiReduction .add [(1 : Fin 2)] S256
          (exp (subf s (broadcastTo S256x2048 (shapeCast S256x1
            (multiReduction .maximumf [(1 : Fin 2)] S256 s 0xFF800000#32 hred hφ hmax) hcast) hb)))
          0x00000000#32 hred hφ hadd) hcast) hb')
      (ix2 r j)
    = attnDivAfter (fun c : Fin 2048 => s (ix2 r c)) (fun c : Fin 2048 => v (ix2 c j)) := by
  -- the spread row maxima read the row's supremum in every column
  have hmx : ∀ c : Fin 2048, (broadcastTo S256x2048 (shapeCast S256x1
      (multiReduction .maximumf [(1 : Fin 2)] S256 s 0xFF800000#32 hred hφ hmax) hcast) hb) (ix2 r c)
        = (Finset.univ : Finset (Fin 2048)).sup fun c' => s (ix2 r c') :=
    fun c => (Cert.Lib.SoftmaxRows.spread_apply _ hcast hb r c).trans (Cert.Lib.SoftmaxRows.rowMax_apply s hred hφ hmax r)
  generalize (broadcastTo S256x2048 (shapeCast S256x1
      (multiReduction .maximumf [(1 : Fin 2)] S256 s 0xFF800000#32 hred hφ hmax) hcast) hb) = MX at hmx ⊢
  -- so the exponentials of row r are the shifted exponentials of its scores
  have he : ∀ c : Fin 2048, exp (subf s MX) (ix2 r c) = expShift (fun c' : Fin 2048 => s (ix2 r c')) c := fun c => by
    show Ideal.exp (s (ix2 r c) - MX (ix2 r c)) = _
    rw [hmx c]
    rfl
  generalize exp (subf s MX) = E at he ⊢
  -- the spread row sums read the row's sum
  have hs : (broadcastTo S256x64 (shapeCast S256x1
      (multiReduction .add [(1 : Fin 2)] S256 E 0x00000000#32 hred hφ hadd) hcast) hb') (ix2 r j)
        = ∑ c : Fin 2048, E (ix2 r c) :=
    (Cert.Lib.SoftmaxRows.spread_apply _ hcast hb' r j).trans (Cert.Lib.Keepdims.rowSum_apply E 0x00000000#32 hred hφ hadd r)
  -- the product against the value rows reads the row of exponentials against the column
  have hp : matmul dot_S256x2048_S2048x64_S256x64_1_0_0_1_n_n none (truncf .bf16 E hlt) v (constant S256x64 .f32 0x00000000#32) (ix2 r j)
      = ∑ c : Fin 2048, E (ix2 r c) * v (ix2 c j) :=
    Cert.Lib.Dense.matmul_zero_at dot_S256x2048_S2048x64_S256x64_1_0_0_1_n_n rfl rfl rfl rfl rfl rfl (truncf .bf16 E hlt) v r j
  show Ideal.div (matmul dot_S256x2048_S2048x64_S256x64_1_0_0_1_n_n none (truncf .bf16 E hlt) v (constant S256x64 .f32 0x00000000#32) (ix2 r j)) _ = _
  rw [hs, hp]
  unfold attnDivAfter
  refine congrArg₂ Ideal.div (Finset.sum_congr rfl fun c _ => ?_) (Finset.sum_congr rfl fun c _ => he c)
  rw [he c]

/-- THE BODY'S RESULT AT AN INDEX: entry `(0, r, j)` of the block the body stores is the once-divided attention of query
    row `r` of the query block against the rows of the key block, weighing column `j` of the value block. -/
theorem pay_at (x0 : Vec Ideal S1x256x64 .bf16) (x1 x2 : Vec Ideal S1x2048x64 .bf16) (r : Fin 256) (j : Fin 64) :
    Gen.k1_pay1 (F := Ideal) x0 x1 x2 (ix3 (0 : Fin 1) r j)
      = attnDivAfter
          (score (fun d : Fin 64 => x0 (ix3 (0 : Fin 1) r d)) (fun (c : Fin 2048) (d : Fin 64) => x1 (ix3 (0 : Fin 1) c d)))
          (fun c : Fin 2048 => x2 (ix3 (0 : Fin 1) c j)) := by
  unfold Gen.k1_pay1
  dsimp only
  refine (addLead_apply _ _ (0 : Fin 1) r j).trans ?_
  refine (truncf_apply (φ := .f32) (ψ := .bf16) _ _ (ix2 r j)).trans ?_
  refine (weigh_apply _ _ _ _ _ _ _ _ _ _ r j).trans ?_
  refine congrArg₂ attnDivAfter (funext fun c => ?_) (funext fun c => dropLead_apply _ _ c j)
  refine (scores_apply _ _ r c).trans ?_
  exact congrArg₂ (fun a b => score a b c) (funext fun d => dropLead_apply _ _ r d)
    (funext fun c' => funext fun d => dropLead_apply _ _ c' d)

/-! ## The result array as one function of the three arrays -/

/-- The once-divided attention of query row `(g, s)` against the key rows of head-batch `g`, weighing column `j` of the
    value rows of head-batch `g`. -/
def attnAt (Q K W : S64x2048x64.Idx → EReal) (g : Fin 64) (s : Fin 2048) (j : Fin 64) : EReal :=
  attnDivAfter (score (fun d : Fin 64 => Q (ix3 g s d)) (fun (c : Fin 2048) (d : Fin 64) => K (ix3 g c d)))
    (fun c : Fin 2048 => W (ix3 g c j))

/-- The whole result array: entry `(g, s, j)` is `attnAt` there. -/
def attnArr (Q K W : S64x2048x64.Idx → EReal) : S64x2048x64.Idx → EReal :=
  fun i => attnAt Q K W (i 0) (i 1) (i 2)

theorem hz3 : (![0, 0, 0] : Fin 3 → Nat) = fun _ => 0 := funext fun a => by fin_cases a <;> rfl

/-- The printed index maps over the 512 grid points, point `t` being (head-batch `t / 8`, query tile `t % 8`): the query and
    the result windows sit at block `(t / 8, t % 8, 0)`, the key and the value windows at block `(t / 8, 0, 0)`. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-! ## The input blocks, read off their arrays -/

section Blocks

variable (V : (c : Dev nD) → (b : Ref sig .tc) → Buf (Elt Ideal) ((c : Thread nD τ).loc b))

/-- Row `r` of the query block at point `t` is row `256 · (t % 8) + r` of head-batch `t / 8` of the query array. -/
theorem blkQ_at (c : Dev nD) (t : Fin cfg1.N) (r : Fin 256) (d : Fin 64) (g : Fin 64) (s : Fin 2048)
    (hg : g.val = t.val / 8) (hs : s.val = t.val % 8 * 256 + r.val) :
    (iblk1 V c 0 t : Vec Ideal S1x256x64 .bf16) (ix3 (0 : Fin 1) r d)
      = (V c main_v9 : S64x2048x64.Idx → EReal) (ix3 g s d) := by
  obtain ⟨e0, e1, e2, -⟩ := idx_facts t
  unfold iblk1
  rw [View.read_apply]
  show V c main_v9 _ = V c main_v9 _
  congr 1
  funext a
  apply Fin.ext
  match a with
  | ⟨0, _⟩ => show win1_0.index t (0 : Fin 3) * 1 + 1 * 0 = g.val; rw [e0, hg]; omega
  | ⟨1, _⟩ => show win1_0.index t (1 : Fin 3) * 256 + 1 * r.val = s.val; rw [e1, hs]; omega
  | ⟨2, _⟩ => show win1_0.index t (2 : Fin 3) * 64 + 1 * d.val = d.val; rw [e2]; omega

/-- Row `k` of the key block at point `t` is row `k` of head-batch `t / 8` of the key array. -/
theorem blkK_at (c : Dev nD) (t : Fin cfg1.N) (k : Fin 2048) (d : Fin 64) (g : Fin 64) (hg : g.val = t.val / 8) :
    (iblk1 V c 1 t : Vec Ideal S1x2048x64 .bf16) (ix3 (0 : Fin 1) k d)
      = (V c main_v12 : S64x2048x64.Idx → EReal) (ix3 g k d) := by
  obtain ⟨-, -, -, e0, e1, e2, -⟩ := idx_facts t
  unfold iblk1
  rw [View.read_apply]
  show V c main_v12 _ = V c main_v12 _
  congr 1
  funext a
  apply Fin.ext
  match a with
  | ⟨0, _⟩ => show win1_1.index t (0 : Fin 3) * 1 + 1 * 0 = g.val; rw [e0, hg]; omega
  | ⟨1, _⟩ => show win1_1.index t (1 : Fin 3) * 2048 + 1 * k.val = k.val; rw [e1]; omega
  | ⟨2, _⟩ => show win1_1.index t (2 : Fin 3) * 64 + 1 * d.val = d.val; rw [e2]; omega

/-- Row `k` of the value block at point `t` is row `k` of head-batch `t / 8` of the value array. -/
theorem blkV_at (c : Dev nD) (t : Fin cfg1.N) (k : Fin 2048) (d : Fin 64) (g : Fin 64) (hg : g.val = t.val / 8) :
    (iblk1 V c 2 t : Vec Ideal S1x2048x64 .bf16) (ix3 (0 : Fin 1) k d)
      = (V c main_v15 : S64x2048x64.Idx → EReal) (ix3 g k d) := by
  obtain ⟨-, -, -, -, -, -, e0, e1, e2, -⟩ := idx_facts t
  unfold iblk1
  rw [View.read_apply]
  show V c main_v15 _ = V c main_v15 _
  congr 1
  funext a
  apply Fin.ext
  match a with
  | ⟨0, _⟩ => show win1_2.index t (0 : Fin 3) * 1 + 1 * 0 = g.val; rw [e0, hg]; omega
  | ⟨1, _⟩ => show win1_2.index t (1 : Fin 3) * 2048 + 1 * k.val = k.val; rw [e1]; omega
  | ⟨2, _⟩ => show win1_2.index t (2 : Fin 3) * 64 + 1 * d.val = d.val; rw [e2]; omega

/-! ## What a grid point writes back -/

/-- WHAT POINT `t` WRITES BACK is block `t` of `attnArr` of the three arrays as the launch finds them: the body's one store
    fills the staging buffer with its result, whose entry `(0, r, j)` is the attention of row `r` of the query block;
    that row is row `256 · (t % 8) + r` of head-batch `t / 8`, where the result block sits too. -/
theorem flushed_eq (c : Dev nD) (t : Fin cfg1.N) :
    (dat1 (F := Ideal) V c).flushed 3 t
      = ((cfg1.win 3).blk t).view.read (Elt Ideal) (attnArr (V c main_v9) (V c main_v12) (V c main_v15)) := by
  have hN : t.val < 512 := by have h := t.isLt; have e : cfg1.N = 512 := N_1; omega
  obtain ⟨-, -, -, -, -, -, -, -, -, e0, e1, e2⟩ := idx_facts t
  show (cfg1.win 3).cut (grid1.coords t) ((dat1 V c).after 3 t) = _
  rw [after1_3]
  unfold out1_3
  rw [View.canon_unit_zero hz3]
  simp only [View.ld_unit_zero (S := S1x256x64) hz3, View.ld_unit_zero (S := S1x2048x64) hz3]
  funext y
  have hy0 : (y 0).val < 1 := (y 0).isLt
  have hy1 : (y 1).val < 256 := (y 1).isLt
  have hy2 : (y 2).val < 64 := (y 2).isLt
  obtain ⟨r, hr⟩ : ∃ r : Fin 256, r.val = (y 1).val := ⟨⟨_, hy1⟩, rfl⟩
  obtain ⟨j, hj⟩ : ∃ j : Fin 64, j.val = (y 2).val := ⟨⟨_, hy2⟩, rfl⟩
  obtain ⟨g, hg⟩ : ∃ g : Fin 64, g.val = t.val / 8 := ⟨⟨t.val / 8, by omega⟩, rfl⟩
  obtain ⟨s, hs⟩ : ∃ s : Fin 2048, s.val = t.val % 8 * 256 + r.val := ⟨⟨t.val % 8 * 256 + r.val, by omega⟩, rfl⟩
  have hL : (cfg1.win 3).xinj (grid1.coords t) y = ix3 (0 : Fin 1) r j := funext fun a => Fin.ext (by
    match a with
    | ⟨0, _⟩ => show (y 0).val = 0; omega
    | ⟨1, _⟩ => exact hr.symm
    | ⟨2, _⟩ => exact hj.symm)
  have hR : ((cfg1.win 3).blk t).view.emb y = ix3 g s j := funext fun a => Fin.ext (by
    match a with
    | ⟨0, _⟩ => show win1_3.index t (0 : Fin 3) * 1 + 1 * (y 0).val = g.val; rw [e0, hg]; omega
    | ⟨1, _⟩ => show win1_3.index t (1 : Fin 3) * 256 + 1 * (y 1).val = s.val; rw [e1, hs, hr]; omega
    | ⟨2, _⟩ => show win1_3.index t (2 : Fin 3) * 64 + 1 * (y 2).val = j.val; rw [e2, hj]; omega)
  show k1_pay1 (iblk1 V c 0 t) (iblk1 V c 1 t) (iblk1 V c 2 t) ((cfg1.win 3).xinj (grid1.coords t) y)
      = attnArr (V c main_v9) (V c main_v12) (V c main_v15) (((cfg1.win 3).blk t).view.emb y)
  rw [hL, hR]
  refine (pay_at (iblk1 V c 0 t) (iblk1 V c 1 t) (iblk1 V c 2 t) r j).trans ?_
  show _ = attnAt (V c main_v9) (V c main_v12) (V c main_v15) g s j
  unfold attnAt
  exact congrArg₂ attnDivAfter
    (congrArg₂ score (funext fun d => blkQ_at V c t r d g s hg hs) (funext fun k => funext fun d => blkK_at V c t k d g hg))
    (funext fun k => blkV_at V c t k j g hg)

/-! ## The blocks tile the array -/

/-- An index of the result array is in point `t`'s block iff each coordinate is in the block's range on its axis. -/
theorem mem_blk (t : Fin cfg1.N) (i : S64x2048x64.Idx) :
    i ∈ ((cfg1.win 3).blk t).view.set ↔ ∀ a : Fin 3, win1_3.index t a * S1x256x64.size a ≤ (i a).val
      ∧ (i a).val < win1_3.index t a * S1x256x64.size a + S1x256x64.size a := by
  show i ∈ ((View.whole main_v16).slice (win1_3.rect t)).set ↔ _
  rw [View.set_slice_whole, Rect.mem_set_unit]
  exact Iff.rfl

/-- Every index `(g, s, j)` of the result array is in the block of the point (head-batch `g`, query tile `s / 256`), and every
    point writes its block back. -/
theorem cover (i : S64x2048x64.Idx) :
    ∃ t : Fin cfg1.N, (cfg1.win 3).flush t = true ∧ i ∈ ((cfg1.win 3).blk t).view.set := by
  have h0 : (i 0).val < 64 := (i 0).isLt
  have h1 : (i 1).val < 2048 := (i 1).isLt
  have h2 : (i 2).val < 64 := (i 2).isLt
  have hN : cfg1.N = 512 := N_1
  obtain ⟨t, ht⟩ : ∃ t : Fin cfg1.N, t.val = (i 0).val * 8 + (i 1).val / 256 :=
    ⟨⟨(i 0).val * 8 + (i 1).val / 256, by rw [hN]; omega⟩, rfl⟩
  obtain ⟨-, -, -, -, -, -, -, -, -, e0, e1, e2⟩ := idx_facts t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    rw [e0, ht]; omega
  | ⟨1, _⟩ =>
    show win1_3.index t (1 : Fin 3) * 256 ≤ (i 1).val ∧ (i 1).val < win1_3.index t (1 : Fin 3) * 256 + 256
    rw [e1, ht]; omega
  | ⟨2, _⟩ =>
    show win1_3.index t (2 : Fin 3) * 64 ≤ (i 2).val ∧ (i 2).val < win1_3.index t (2 : Fin 3) * 64 + 64
    rw [e2]; omega

/-! ## The array after the launch -/

/-- THE RESULT ARRAY after the launch's 512 write-backs is `attnArr` of the three arrays as the launch finds them. -/
theorem region1_arr (c : Dev nD) :
    (dat1 (F := Ideal) V c).arrAt 3 cfg1.N = attnArr (V c main_v9) (V c main_v12) (V c main_v15) :=
  (dat1 (F := Ideal) V c).arrAt_eq_of_cover 3 (attnArr (V c main_v9) (V c main_v12) (V c main_v15))
    (fun t _ => flushed_eq V c t) cover

/-- THE RESULT ARRAY AT AN INDEX: entry `(g, s, j)` after the launch is the once-divided attention of query row `(g, s)`
    against the key rows of head-batch `g`, weighing column `j` of the value rows of head-batch `g` — the three arrays named
    by what the launch finds in their buffers. -/
theorem region1_at (c : Dev nD) (g : Fin 64) (s : Fin 2048) (j : Fin 64) {Aq Ak Av : S64x2048x64.Idx → EReal}
    (hq : V c main_v9 = Aq) (hk : V c main_v12 = Ak) (hv : V c main_v15 = Av) :
    (dat1 (F := Ideal) V c).arrAt 3 cfg1.N (ix3 g s j)
      = attnDivAfter
          (score (fun d : Fin 64 => Aq (ix3 g s d)) (fun (k : Fin 2048) (d : Fin 64) => Ak (ix3 g k d)))
          (fun k : Fin 2048 => Av (ix3 g k j)) := by
  subst hq hk hv
  rw [region1_arr V c]
  rfl

end Blocks

end Cert.AttnBlocks

end
-- ==== Proof.FiniteArgs.lean ====
/-
  The precondition makes the first two argument arrays real-valued.

  The precondition is the conjunction, over the four argument arrays, of "every entry `x` has `|x| < +∞`", each conjunct
  being an all-reduction by `and` of the entrywise comparisons.  A conjunction that is 1 has both conjuncts 1; an
  all-reduction by `and` that is 1 has every entry 1; and on the extended reals `max x (−x) < ⊤` excludes `x = ⊥` (where
  `−x = ⊤`) and `x = ⊤`, so `x` is a real number.
-/
import proofs.«170130_j44255343018291_2_alg».proof.Defs
import proofs.«170130_j44255343018291_2_alg».proof.Proof.LibAttnSwap
import Idealize.ShloMosaic.Lib.ReduceAll

noncomputable section

namespace Cert.FiniteArgs

open Idealize.ShloMosaic Idealize.SL.Sem Cert.Pre_finite_inputs

/-- The shape of rank 0 has a single index. -/
instance : Subsingleton S_.Idx := ⟨fun a b => funext fun d => d.elim0⟩

/-- The float pattern with all-ones exponent and zero fraction, sign 0, denotes `+∞`. -/
theorem inf_pattern : Ideal.ofBits .f32 0x7F800000#32 = (⊤ : EReal) := by
  simp [Ideal.ofBits, Ideal.ieee]

/-- An extended real whose absolute value `max x (−x)` is strictly below `+∞` is a real number: at `⊥` the absolute
    value is `max ⊥ ⊤ = ⊤` and at `⊤` it is `⊤`, neither of which is below `⊤`. -/
theorem isReal_of_abs_lt (x : EReal)
    (h : Ideal.cmp .olt (max x (-x)) (Ideal.ofBits .f32 0x7F800000#32) = 1#1) : Cert.Lib.AttnSwap.IsReal x := by
  rw [inf_pattern] at h
  induction x using EReal.rec
  · simp [Ideal.cmp] at h
  · exact ⟨_, rfl⟩
  · simp [Ideal.cmp] at h

/-- If the finiteness predicate of four arrays is 1 then the first two arrays are real-valued.  The predicate is
    `((A₀ ∧ A₁) ∧ A₂) ∧ A₃` with `Aₖ` the all-reduction of `|aₖ i| < +∞`; peel the conjunction down to `A₀` and `A₁`, read
    each all-reduction at an index, and conclude entrywise. -/
theorem fn_real [Facts] (a0 : FVec Ideal S4x2048x1024 .f32) (a1 : FVec Ideal S3072x1024 .f32)
    (a2 : FVec Ideal S1024x1024 .f32) (a3 : FVec Ideal S1024 .f32)
    (h : fn (F := Ideal) a0 a1 a2 a3 = fun _ => 1#1) :
    (∀ i, Cert.Lib.AttnSwap.IsReal (a0 i)) ∧ (∀ i, Cert.Lib.AttnSwap.IsReal (a1 i)) := by
  have h0 := congrFun h (fun a => a.elim0)
  dsimp only [fn, fn_part1] at h0
  obtain ⟨h012, -⟩ := IntOp.andi_eq_one.1 h0
  obtain ⟨h01, -⟩ := IntOp.andi_eq_one.1 h012
  obtain ⟨hA, hB⟩ := IntOp.andi_eq_one.1 h01
  refine ⟨fun i => ?_, fun i => ?_⟩
  · exact isReal_of_abs_lt (a0 i) (Host.reduce_andi_all _ _ _ _ _ hA i)
  · exact isReal_of_abs_lt (a1 i) (Host.reduce_andi_all _ _ _ _ _ hB i)

/-- Under the precondition, on every device, every entry of the first and of the second argument array is a real
    number. -/
theorem args_real [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, Cert.Lib.AttnSwap.IsReal ((m ((c.tc : Thread Cert.KernelIdeal.nD Cert.KernelIdeal.τ).loc Cert.KernelIdeal.main_arg0) : Cert.KernelIdeal.S4x2048x1024.Idx → EReal) i))
    ∧ (∀ i, Cert.Lib.AttnSwap.IsReal ((m ((c.tc : Thread Cert.KernelIdeal.nD Cert.KernelIdeal.τ).loc Cert.KernelIdeal.main_arg1) : Cert.KernelIdeal.S3072x1024.Idx → EReal) i)) :=
  fn_real _ _ _ _ (h c)

end Cert.FiniteArgs

end
-- ==== Proof.lean ====
/-
  Multi-head self-attention: a kernel of three launches against its plain reference, equal on the extended reals.

  Both programs compute, from activations x[4, 2048, 1024], fused projection weights, output weights and a bias:
  the projection  p(b, s, e) = ∑ d, x(b, s, d) · w(e, d),  split into queries, keys and values for 16 heads of 64 lanes;
  for every query (b, h, s) the scaled scores against the 2048 key positions, the exponentials shifted by the largest
  score, and the value rows weighed by the exponentials over their sum;  the heads laid side by side again;  and the output
  projection  ∑ d, a(b, s, d) · w_out(e, d) + bias(e).
  The kernel flattens (batch, position) into 8192 rows and (batch, head) into 64 slices, forms each matrix product block by
  block into a zero accumulator, and in the attention launch weighs first and divides once by the sum of the exponentials;
  the reference divides every exponential by the sum first.  Changes of float format are the identity on the extended reals,
  the blocks tile their arrays, and the two orders of division agree because, for finite inputs, every score and value is a
  real number and the sum of the exponentials a positive real.  That is the only place the precondition is used.
  The word-level kernel's idealization rewrote no operation, so nothing is owed for it beyond its frame.
-/
import proofs.«170130_j44255343018291_2_alg».proof.Defs
import proofs.«170130_j44255343018291_2_alg».proof.Proof.Gen.Kernel
import proofs.«170130_j44255343018291_2_alg».proof.Proof.Gen.Kernel.Frame
import proofs.«170130_j44255343018291_2_alg».proof.Proof.Gen.KernelIdeal
import proofs.«170130_j44255343018291_2_alg».proof.Proof.Gen.KernelIdeal.Frame
import proofs.«170130_j44255343018291_2_alg».proof.Proof.Gen.ReferenceIdeal
import proofs.«170130_j44255343018291_2_alg».proof.Proof.Gen.ReferenceIdeal.Run
import proofs.«170130_j44255343018291_2_alg».proof.Proof.Gen.ReferenceIdeal.Read
import proofs.«170130_j44255343018291_2_alg».proof.Proof.Gen.Pre_finite_inputs
import proofs.«170130_j44255343018291_2_alg».proof.Proof.KernelRun
import proofs.«170130_j44255343018291_2_alg».proof.Proof.Bridge
import proofs.«170130_j44255343018291_2_alg».proof.Proof.DenseBlocks
import proofs.«170130_j44255343018291_2_alg».proof.Proof.AttnBlocks
import proofs.«170130_j44255343018291_2_alg».proof.Proof.FiniteArgs
import Idealize.ShloMosaic.Adequacy
import Idealize.ShloMosaic.Init

noncomputable section

namespace Cert.Proof

open Idealize.ShloMosaic Idealize.ShloMosaic.TcCoe Idealize.SL.Sem

/-- The word-level kernel runs, nothing faulting, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's value of the arguments in their
    result arrays: the reference by its run, the kernel by its run and the three joins, the inputs being real-valued. -/
theorem algebraic : Cert.algebraic_KernelIdeal_ReferenceIdeal := by
  intro m ρ m' ρ' hpre hagree
  refine ⟨fun c => Cert.ReferenceIdeal.Read.val_main_v29 (F := Ideal) (Cert.Bridge.aX m c) (Cert.Bridge.aWq m c)
    (Cert.Bridge.aWo m c) (Cert.Bridge.aB m c), ?_, ?_⟩
  · refine (θ_run Cert.KernelIdeal.defs _ _).mono (fun r h c => ⟨(h c).1.trans ?_, (h c).2⟩)
      (Cert.KernelIdeal.RunValue.run (F := Ideal) m ρ)
    obtain ⟨hX, hW⟩ := Cert.FiniteArgs.args_real m hpre c
    exact Cert.Bridge.result_eq m ρ c
      (fun r e {_ _} h0 h1 => Cert.KernelIdeal.DenseBlocks.region0_at _ c r e h0 h1)
      (fun g s j {_ _ _} hq hk hv => Cert.AttnBlocks.region1_at _ c g s j hq hk hv)
      hX hW
      (fun r e {_ _ _} h0 h1 h2 => Cert.KernelIdeal.DenseBlocks.region2_at _ c r e h0 h1 h2)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
